-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 34
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S4096x1, .i32⟩
  | .hbm, ⟨4, _⟩ => ⟨S_, .i32⟩
  | .hbm, ⟨5, _⟩ => ⟨S4096x1, .i32⟩
  | .hbm, ⟨6, _⟩ => ⟨S4096x1, .i1⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x1, .i32⟩
  | .hbm, ⟨11, _⟩ => ⟨S4096x1x1, .i32⟩
  | .hbm, ⟨12, _⟩ => ⟨S1, .i32⟩
  | .hbm, ⟨13, _⟩ => ⟨S_, .i32⟩
  | .hbm, ⟨14, _⟩ => ⟨S4096x1x1, .i32⟩
  | .hbm, ⟨15, _⟩ => ⟨S4096x1x1, .i1⟩
  | .hbm, ⟨16, _⟩ => ⟨S1x1x1, .i32⟩
  | .hbm, ⟨17, _⟩ => ⟨S4096x1x1, .i32⟩
  | .hbm, ⟨18, _⟩ => ⟨S4096x1x1, .i1⟩
  | .hbm, ⟨19, _⟩ => ⟨S4096x1x1, .i1⟩
  | .hbm, ⟨20, _⟩ => ⟨S_, .i1⟩
  | .hbm, ⟨21, _⟩ => ⟨S4096x1, .i1⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 13], ![false, false]⟩

def k0_cond3 (i : grid0.Coords) : BitVec 1 :=
  let arg1 : BitVec 32 := BitVec.ofNat 32 (i 1).val
  let c12_i32 : BitVec 32 := 12#32
  let v4 : BitVec 1 := Scalar.cmpi .eq arg1 c12_i32
  let v8 : BitVec 32 := Scalar.extui v4
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  iota_S512x4096_d1_w32 : S512x4096.Iotas .tc 32 [1]
  shapeCasts_S4096_S4096x1 : S4096.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x4096.size a < S4096x50257.size a
  hwx0_0 : ∀ i : grid0.Coords, EltTy.bits .f32 = 32 ∨ (Rect.unit (s := S4096x50257) (fun a => cc0_transform_0 i a * S512x4096.size a) (fun a => (Pipeline.Clip.of (cc0_transform_0 i a) (S512x4096.size a) (S4096x50257.size a)).extent (S512x4096.size a)) fun a => Pipeline.Clip.inb (Pipeline.Clip.ok_of (hstart0_0 i a))).WholeWords (EltTy.packing .f32)
  hwxs0_0 : ∀ i : grid0.Coords, EltTy.bits .f32 = 32 ∨ (Rect.unit (s := S512x4096) (fun _ => 0) (fun a => (Pipeline.Clip.of (cc0_transform_0 i a) (S512x4096.size a) (S4096x50257.size a)).extent (S512x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpecClip (Memref.whole main_arg0) S512x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.BitsRuns.lean ====
/-
  The kernel body of the online log-sum-exp, run symbolically at each of its three kinds of grid point, for any
  float instance. A row block's 13 column tiles are visited in order; two scratch buffers carry the running
  maximum and the running sum of exponentials between them. At the FIRST tile the body resets the pair to
  (floor, 0) and folds the tile in; at a MIDDLE tile it folds the tile into the pair the tile before left; at the
  LAST tile it folds in the tile masked to the columns that exist, and stores `max + log sum` to the output.
  Each run says exactly which pure term of the loaded values every buffer ends with: every load and store is of a
  whole buffer, so a load reads the contents and a store leaves its payload.
-/
import proofs.«113945_j34471407518047_2_alg».proof.Proof.Gen.Kernel.Frame
import proofs.«113945_j34471407518047_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three branch conditions of the body, as functions of the grid point: the column tile is the first one, -/
abbrev cond0_0 (i : grid0.Coords) : Prop := (Scalar.cmpi .ne (Scalar.extui (Scalar.cmpi .eq (BitVec.ofNat 32 (i 1).val) 0#32)) 0#32) = 1#1
/-- it is not the last one, -/
abbrev cond0_1 (i : grid0.Coords) : Prop := (Scalar.cmpi .ne (Scalar.extui (Scalar.xori (Scalar.cmpi .eq (BitVec.ofNat 32 (i 1).val) 12#32) 1#1)) 0#32) = 1#1
/-- it is the last one. -/
abbrev cond0_2 (i : grid0.Coords) : Prop := k0_cond3 i = 1#1

/-- The whole-buffer rectangle's offsets are zero. -/
theorem hz : (![0, 0] : Fin 2 → Nat) = fun _ => 0 := funext fun a => by fin_cases a <;> rfl

set_option maxHeartbeats 1000000 in
/-- THE FIRST COLUMN TILE of a row block: the body resets the running maximum to the floor and the running sum to
    zero, then folds the tile in — whatever the two scratch buffers held, they end at the tile's step from the
    initial pair; the input's and the idle output's buffers are handed back as found. -/
theorem runA (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : cond0_0 i) (hc1 : cond0_1 i) (hc2 : ¬cond0_2 i)
    (x0 : Vec F S512x4096 .f32) (xi1 : Vec F S512x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare xi1 ∗ owns (c : Thread nD τ) arg4 fullShare (k0_pay5 x0 (k0_pay1 (F := F))) ∗ owns (c : Thread nD τ) arg5 fullShare (k0_pay4 x0 (k0_pay1 (F := F)) (k0_pay2 (F := F)))) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%f1, %hf1, H1⟩, ⟨%dm, %fm, -, HM⟩, ⟨%dl, %fl, -, HL⟩, Hk⟩
  obtain rfl := harg2.eq_unread hf0; obtain rfl := harg3.eq_unread hf1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

set_option maxHeartbeats 1000000 in
/-- A MIDDLE COLUMN TILE: from the running pair the point before left, the two scratch buffers end at the tile's
    step from it. -/
theorem runB (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : ¬cond0_0 i) (hc1 : cond0_1 i) (hc2 : ¬cond0_2 i)
    (x0 : Vec F S512x4096 .f32) (xi1 xm xl : Vec F S512x1 .f32) (E : Set ℕ) (K : PUnit → sProp 𝕄) :
    iprop(owns (c : Thread nD τ) arg2 fullShare x0 ∗ owns (c : Thread nD τ) arg3 fullShare xi1 ∗ owns (c : Thread nD τ) arg4 fullShare xm ∗ owns (c : Thread nD τ) arg5 fullShare xl
        ∗ (iprop(owns (c : Thread nD τ) arg2 fullShare x0 ∗ owns (c : Thread nD τ) arg3 fullShare xi1 ∗ owns (c : Thread nD τ) arg4 fullShare (k0_pay5 x0 xm) ∗ owns (c : Thread nD τ) arg5 fullShare (k0_pay4 x0 xm xl)) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%f1, %hf1, H1⟩, ⟨%fm, %hfm, HM⟩, ⟨%fl, %hfl, HL⟩, Hk⟩
  obtain rfl := harg2.eq_unread hf0; obtain rfl := harg3.eq_unread hf1; obtain rfl := harg4.eq_unread hfm; obtain rfl := harg5.eq_unread hfl
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

set_option maxHeartbeats 1000000 in
/-- THE LAST COLUMN TILE: the masked step from the running pair, and the output's buffer, whatever it held, ends at
    the new maximum plus the logarithm of the new sum. -/
theorem runC (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : ¬cond0_0 i) (hc1 : ¬cond0_1 i) (hc2 : cond0_2 i)
    (x0 : Vec F S512x4096 .f32) (xm xl : Vec F S512x1 .f32) (E : Set ℕ) (K : PUnit → sProp 𝕄) :
    iprop(owns (c : Thread nD τ) arg2 fullShare x0 ∗ (∃ d, owns (c : Thread nD τ) arg3 fullShare d) ∗ owns (c : Thread nD τ) arg4 fullShare xm ∗ owns (c : Thread nD τ) arg5 fullShare xl
        ∗ (iprop(owns (c : Thread nD τ) arg2 fullShare x0 ∗ owns (c : Thread nD τ) arg3 fullShare (k0_pay10 (k0_pay9 i x0 xm) (k0_pay8 i x0 xm xl)) ∗ owns (c : Thread nD τ) arg4 fullShare (k0_pay9 i x0 xm) ∗ owns (c : Thread nD τ) arg5 fullShare (k0_pay8 i x0 xm xl)) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%d1, %f1, -, H1⟩, ⟨%fm, %hfm, HM⟩, ⟨%fl, %hfl, HL⟩, Hk⟩
  obtain rfl := harg2.eq_unread hf0; obtain rfl := harg4.eq_unread hfm; obtain rfl := harg5.eq_unread hfl
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

end Cert.Kernel.Body

end
-- ==== Proof.BitsMask.lean ====
/-
  The column mask of the last tile. At grid coordinate 12 on the column axis the tile's column `c` is the array's
  column `4096 * 12 + c`, and the mask bit at an index is `1` exactly when that column exists, that is, is below
  `50257`. The comparison is a signed 32-bit one of `12 * 4096 + c` with `50257`; both are far below `2 ^ 31`, so
  nothing wraps and the bit is the comparison of the natural numbers.
-/
import proofs.«113945_j34471407518047_2_alg».proof.Proof.Gen.Kernel.Skeleton

namespace Cert.Kernel.Mask

open Cert.Kernel Cert.Kernel.Gen Idealize.ShloMosaic

/-- The tile's base column: `12 * 4096` as a 32-bit word. -/
theorem base_eq : Scalar.muli (BitVec.ofNat 32 12) 4096#32 = 49152#32 := by decide

/-- Adding a tile column to the base column does not wrap. -/
theorem col_toNat (c : Nat) (hc : c < 4096) : (49152#32 + BitVec.ofNat 32 c).toNat = 49152 + c := by
  rw [BitVec.toNat_add, BitVec.toNat_ofNat, BitVec.toNat_ofNat]
  omega

/-- The mask bit at an index of the last tile is `1` exactly when the index's column exists in the array. -/
theorem mask_iff (i : grid0.Coords) (hi : (i 1).val = 12) (j : S512x4096.Idx) :
    k0_pay6 i j = 1#1 ↔ 4096 * 12 + (j 1).val < 50257 := by
  have hj : (j 1).val < 4096 := (j 1).isLt
  show IntOp.cmpi .slt (IntOp.addi (Scalar.muli (BitVec.ofNat 32 (i 1).val) 4096#32)
      (iota .tc S512x4096 32 [1] iota_S512x4096_d1_w32 j)) 50257#32 = 1#1 ↔ _
  have hio : iota .tc S512x4096 32 [1] iota_S512x4096_d1_w32 j = BitVec.ofNat 32 (j 1).val := by simp [iota]
  rw [hi, base_eq, hio, IntOp.cmpi_slt]
  show (49152#32 + BitVec.ofNat 32 (j 1).val).toInt < (50257#32 : BitVec 32).toInt ↔ _
  rw [BitVec.toInt_eq_toNat_of_lt (by rw [col_toNat _ hj]; omega), col_toNat _ hj,
    BitVec.toInt_eq_toNat_of_lt (by decide)]
  show ((49152 + (j 1).val : Nat) : Int) < ((50257 : Nat) : Int) ↔ _
  omega

end Cert.Kernel.Mask
-- ==== Proof.BitsBody.lean ====
/-
  The frame of the online log-sum-exp kernel, for any float instance: the proof data of its one pipeline, the body
  obligation at every grid point, and the run.
  The grid is 8 row blocks by 13 column tiles, visited row block by row block. The input's window is fetched at
  every point; its last column tile overhangs the array (50257 = 12 · 4096 + 1105), so the fetch leaves words nothing
  names in the buffer past column 1105, and the obligation for that window speaks of the part inside the array only.
  The output's window is idle except at a row block's last tile, where the body stores into it and the pipeline
  writes it back. The two scratch buffers carry the running maximum and the running sum from tile to tile: the
  region invariant names their contents after every point (`outsAt0`, by recursion on the point), which is what lets
  the value of the output be read off afterwards. At the last tile the running pair does not depend on the unnamed
  words, because the body selects them away before it reduces (`last_indep`).
-/
import proofs.«113945_j34471407518047_2_alg».proof.Proof.BitsRuns
import proofs.«113945_j34471407518047_2_alg».proof.Proof.BitsMask

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid (104 points, 13 column tiles per row block) -/

theorem hcond0_0 : ∀ t : Fin cfg0.N, cond0_0 (grid0.coords t) ↔ t.val % 13 = 0 :=
  (by decide +kernel : ∀ t : Fin grid0.N, cond0_0 (grid0.coords t) ↔ t.val % 13 = 0)
theorem hcond0_1 : ∀ t : Fin cfg0.N, cond0_1 (grid0.coords t) ↔ ¬t.val % 13 = 12 :=
  (by decide +kernel : ∀ t : Fin grid0.N, cond0_1 (grid0.coords t) ↔ ¬t.val % 13 = 12)
theorem hcond0_2 : ∀ t : Fin cfg0.N, cond0_2 (grid0.coords t) ↔ t.val % 13 = 12 :=
  (by decide +kernel : ∀ t : Fin grid0.N, cond0_2 (grid0.coords t) ↔ t.val % 13 = 12)

/-- The output window is idle, and not written back, at every column tile but the last; there it is live. -/
theorem idleAt0_1 : ∀ t : Fin cfg0.N, ¬t.val % 13 = 12 → cfg0.idle 1 (grid0.coords t) = true :=
  (by decide +kernel : ∀ t : Fin grid0.N, ¬t.val % 13 = 12 → cfg0.idle 1 (grid0.coords t) = true)
theorem noFlush0_1 : ∀ t : Fin cfg0.N, ¬t.val % 13 = 12 → (cfg0.win 1).flush t = false :=
  (by decide +kernel : ∀ t : Fin grid0.N, ¬t.val % 13 = 12 → win0_1.flush t = false)
theorem liveAt0_1 : ∀ t : Fin cfg0.N, t.val % 13 = 12 → cfg0.idle 1 (grid0.coords t) = false :=
  (by decide +kernel : ∀ t : Fin grid0.N, t.val % 13 = 12 → cfg0.idle 1 (grid0.coords t) = false)

/-- Away from the last column tile the input's block lies inside the array: the fetch fills the whole buffer. -/
theorem xsize_full : ∀ t : Fin cfg0.N, ¬t.val % 13 = 12 → ∀ a, win0_0.xsize (grid0.coords t) a = S512x4096.size a :=
  (by decide +kernel : ∀ t : Fin grid0.N, ¬t.val % 13 = 12 → ∀ a, win0_0.xsize (grid0.coords t) a = S512x4096.size a)

/-! ## The staging and scratch memrefs -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers. -/
abbrev scM0 : Memref sig .tc .vmem S512x1 .f32 := Memref.whole cc0_scratch0
abbrev scM1 : Memref sig .tc .vmem S512x1 .f32 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the buffers hold after each point -/

/-- A word nothing reads: the filler of the input's buffer past the array's end, and of the idle output's slot in
    the state below. -/
def zw : Elt F .f32 := Scalar.ofBits .f32 0#32

/-- The input's staging buffer at point `t` on the part inside the array (its block), filled out with the filler. -/
def tile (c : Dev nD) (t : Fin cfg0.N) : Vec F S512x4096 .f32 :=
  win0_0.fill (grid0.coords t) (fun _ => zw) (iblk m c 0 t)

/-- One point's effect on (output buffer, running maximum, running sum): at a first column tile the step from the
    initial pair, at a middle one the step from the previous pair, at the last one the masked step and the output
    `max + log sum`. -/
def stepAt (t : Fin cfg0.N) (T : Vec F S512x4096 .f32) (s : Vec F S512x1 .f32 × Vec F S512x1 .f32 × Vec F S512x1 .f32) :
    Vec F S512x1 .f32 × Vec F S512x1 .f32 × Vec F S512x1 .f32 :=
  if t.val % 13 = 0 then ((fun _ => zw), k0_pay5 T (k0_pay1 (F := F)), k0_pay4 T (k0_pay1 (F := F)) (k0_pay2 (F := F)))
  else if t.val % 13 = 12 then
    (k0_pay10 (k0_pay9 (grid0.coords t) T s.2.1) (k0_pay8 (grid0.coords t) T s.2.1 s.2.2),
      k0_pay9 (grid0.coords t) T s.2.1, k0_pay8 (grid0.coords t) T s.2.1 s.2.2)
  else ((fun _ => zw), k0_pay5 T s.2.1, k0_pay4 T s.2.1 s.2.2)

/-- The state after the body at position `n`, by recursion on the point. -/
def outsAt0 (c : Dev nD) : (n : ℕ) → n < cfg0.N → Vec F S512x1 .f32 × Vec F S512x1 .f32 × Vec F S512x1 .f32
  | 0, hn => stepAt ⟨0, hn⟩ (tile m c ⟨0, hn⟩) ((fun _ => zw), (fun _ => zw), (fun _ => zw))
  | n + 1, hn => stepAt ⟨n + 1, hn⟩ (tile m c ⟨n + 1, hn⟩) (outsAt0 c n (Nat.lt_of_succ_lt hn))

theorem outsAt0_first (c : Dev nD) (t : Fin cfg0.N) (h0 : t.val % 13 = 0) :
    outsAt0 m c t.val t.isLt = ((fun _ => zw), k0_pay5 (tile m c t) (k0_pay1 (F := F)), k0_pay4 (tile m c t) (k0_pay1 (F := F)) (k0_pay2 (F := F))) := by
  obtain ⟨n, hn⟩ := t
  cases n with
  | zero => rw [outsAt0]; unfold stepAt; rw [if_pos h0]
  | succ n => rw [outsAt0]; unfold stepAt; rw [if_pos h0]

theorem outsAt0_mid (c : Dev nD) (t : Fin cfg0.N) (h0 : ¬t.val % 13 = 0) (h12 : ¬t.val % 13 = 12) :
    outsAt0 m c t.val t.isLt = ((fun _ => zw), k0_pay5 (tile m c t) (outsAt0 m c (t.val - 1) (Nat.lt_of_le_of_lt (Nat.sub_le _ _) t.isLt)).2.1,
      k0_pay4 (tile m c t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod _) h0
  | succ n => rw [outsAt0]; unfold stepAt; rw [if_neg h0, if_neg h12]; rfl

theorem outsAt0_last (c : Dev nD) (t : Fin cfg0.N) (h12 : t.val % 13 = 12) :
    outsAt0 m c t.val t.isLt =
      (k0_pay10 (k0_pay9 (grid0.coords t) (tile m c t) (outsAt0 m c (t.val - 1) (Nat.lt_of_le_of_lt (Nat.sub_le _ _) t.isLt)).2.1)
          (k0_pay8 (grid0.coords t) (tile m c t) (outsAt0 m c (t.val - 1) (Nat.lt_of_le_of_lt (Nat.sub_le _ _) t.isLt)).2.1 (outsAt0 m c (t.val - 1) (Nat.lt_of_le_of_lt (Nat.sub_le _ _) t.isLt)).2.2),
        k0_pay9 (grid0.coords t) (tile m c t) (outsAt0 m c (t.val - 1) (Nat.lt_of_le_of_lt (Nat.sub_le _ _) t.isLt)).2.1,
        k0_pay8 (grid0.coords t) (tile m c t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (show (0 : ℕ) % 13 = 12 from h12) (by decide)
  | succ n => rw [outsAt0]; unfold stepAt; rw [if_neg (show ¬(n + 1) % 13 = 0 from fun h => by have h' : (n + 1) % 13 = 12 := h12; omega), if_pos h12]; rfl

/-- The region invariant before position `n`: before the first point the class's; afterwards the two scratch
    buffers at the running pair the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2.1) ∗ owns (c : Thread nD τ) scM1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt0 m c n hn).2.1) ∗ owns (c : Thread nD τ) scM1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.1) ∗ owns (c : Thread nD τ) scM1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` the input's buffer at its tile and the
    output's at the state's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = tile m c t := by dsimp only [dats]
theorem after0_1 (c : Dev nD) (t : Fin cfg0.N) : (dats m 0 c).after 1 t = (outsAt0 m c t.val t.isLt).1 := by dsimp only [dats]

/-- The input's buffer as the body finds it: just fetched — its block on the part inside the array, `d` past it. -/
theorem before0_0 (c : Dev nD) (t : Fin cfg0.N) (d) :
    (dats m 0 c).before 0 t d = win0_0.fill (grid0.coords t) d (iblk m c 0 t) := by
  unfold Dat.before; rw [if_pos (fetch0_0 t)]; rfl

/-- Away from the last column tile the filler is nowhere: the buffer is the tile. -/
theorem fill_full (c : Dev nD) (t : Fin cfg0.N) (h12 : ¬t.val % 13 = 12) (d) :
    win0_0.fill (grid0.coords t) d (iblk m c 0 t) = tile m c t := by
  funext j
  unfold tile Window.fill
  have hm : win0_0.moved (grid0.coords t) j = true :=
    (win0_0.moved_iff _ j).mpr fun a => by rw [xsize_full t h12 a]; exact (j a).isLt
  rw [dif_pos hm, dif_pos hm]

/-! ## At the last column tile the unnamed words are masked away -/

/-- At a last column tile the part of the block inside the array is 512 rows by 1105 columns
    (50257 = 12 · 4096 + 1105), and the tile's number is 12. -/
theorem xsize_last : ∀ t : Fin cfg0.N, t.val % 13 = 12 → ∀ a, win0_0.xsize (grid0.coords t) a = (![512, 1105] : Fin 2 → ℕ) a :=
  (by decide +kernel : ∀ t : Fin grid0.N, t.val % 13 = 12 → ∀ a, win0_0.xsize (grid0.coords t) a = (![512, 1105] : Fin 2 → ℕ) a)
theorem coord_last : ∀ t : Fin cfg0.N, t.val % 13 = 12 → (grid0.coords t 1).val = 12 :=
  (by decide +kernel : ∀ t : Fin grid0.N, t.val % 13 = 12 → (grid0.coords t 1).val = 12)

/-- A select between two vectors sees its first operand only where the mask is set. -/
theorem select_congr_on {α : Type} {s : Shape} (k : IVec s 1) (a a' b : s.Idx → α) (h : ∀ j, k j = 1#1 → a j = a' j) :
    select k a b = select k a' b := by
  funext j
  show Scalar.select (k j) (a j) (b j) = Scalar.select (k j) (a' j) (b j)
  unfold Scalar.select
  split
  · rename_i hk; rw [h j hk]
  · rfl

/-- Where the last tile's mask is set the column exists, so the fetched buffer holds the array's word there
    whatever was in the buffer before. -/
theorem fill_agree (t : Fin cfg0.N) (h12 : t.val % 13 = 12) (d d' : S512x4096.Idx → Elt F .f32)
    (g : (win0_0.xblock (grid0.coords t)).Idx → Elt F .f32) (j : S512x4096.Idx) (hj : k0_pay6 (grid0.coords t) j = 1#1) :
    win0_0.fill (grid0.coords t) d g j = win0_0.fill (grid0.coords t) d' g j := by
  have hm : win0_0.moved (grid0.coords t) j = true := (win0_0.moved_iff _ j).mpr fun a => by
    rw [xsize_last t h12 a]
    match a with
    | ⟨0, _⟩ => exact (j 0).isLt
    | ⟨1, _⟩ =>
      have h := (Mask.mask_iff _ (coord_last t h12) j).mp hj
      show (j 1).val < 1105
      omega
  unfold Window.fill; rw [dif_pos hm, dif_pos hm]

/-- So the masked step of the last tile is the same function of the block inside the array whatever lies past it:
    the maximum is taken over the masked tile, and the summands off the mask are the constant zero. -/
theorem last_indep (c : Dev nD) (t : Fin cfg0.N) (d : S512x4096.Idx → Elt F .f32) (xm xl : Vec F S512x1 .f32) (h12 : t.val % 13 = 12) :
    k0_pay9 (grid0.coords t) (win0_0.fill (grid0.coords t) d (iblk m c 0 t)) xm = k0_pay9 (grid0.coords t) (tile m c t) xm
    ∧ k0_pay8 (grid0.coords t) (win0_0.fill (grid0.coords t) d (iblk m c 0 t)) xm xl = k0_pay8 (grid0.coords t) (tile m c t) xm xl := by
  have hsel : ∀ b : Vec F S512x4096 .f32, select (k0_pay6 (grid0.coords t)) (win0_0.fill (grid0.coords t) d (iblk m c 0 t)) b
      = select (k0_pay6 (grid0.coords t)) (tile m c t) b := fun b =>
    select_congr_on _ _ _ _ fun j hj => fill_agree t h12 _ _ _ j hj
  have hsel2 : ∀ (bc b : FVec F S512x4096 .f32), select (k0_pay6 (grid0.coords t)) (exp (subf (win0_0.fill (grid0.coords t) d (iblk m c 0 t)) bc)) b
      = select (k0_pay6 (grid0.coords t)) (exp (subf (tile m c t) bc)) b := fun bc b =>
    select_congr_on _ _ _ _ fun j hj => by
      show FloatOps.exp (FloatOps.subf (win0_0.fill (grid0.coords t) d (iblk m c 0 t) j) (bc j)) = FloatOps.exp (FloatOps.subf (tile m c t j) (bc j))
      rw [show win0_0.fill (grid0.coords t) d (iblk m c 0 t) j = tile m c t j from fill_agree t h12 _ _ _ j hj]
  have h7 : k0_pay7 (grid0.coords t) (win0_0.fill (grid0.coords t) d (iblk m c 0 t)) xm = k0_pay7 (grid0.coords t) (tile m c t) xm := by
    simp only [k0_pay7, hsel]
  constructor
  · simp only [k0_pay9, h7]
  · simp only [k0_pay8, h7, hsel2]

/-! ## The body obligation, at a generic point -/

/-- What the obligation states of the input's buffer after the body: the tile's block on the part inside the array. -/
theorem leaves0_0 (c : Dev nD) (t : Fin cfg0.N) :
    (dats m 0 c).leaves 0 t = iprop(∃ d, owns (c : Thread nD τ) (ms0_0 t) fullShare (win0_0.fill (grid0.coords t) d (iblk m c 0 t))) := by
  rw [show (dats m 0 c).leaves 0 t = iprop(∃ d, owns (c : Thread nD τ) (ms0_0 t) fullShare (win0_0.fill (grid0.coords t) d (win0_0.cut (grid0.coords t) ((dats m 0 c).after 0 t)))) from rfl,
    after0_0, show win0_0.cut (grid0.coords t) (tile m c t) = iblk m c 0 t from win0_0.cut_fill _ _ _]

/-- Of the output's buffer: at the last column tile the state's first component, -/
theorem leaves0_1_last (c : Dev nD) (t : Fin cfg0.N) (h12 : t.val % 13 = 12) :
    (dats m 0 c).leaves 1 t = owns (c : Thread nD τ) (ms0_1 t) fullShare ((outsAt0 m c t.val t.isLt).1) := by
  unfold Dat.leaves; rw [liveAt0_1 t h12, after0_1]
/-- elsewhere what the body found there. -/
theorem leaves0_1_idle (c : Dev nD) (t : Fin cfg0.N) (h12 : ¬t.val % 13 = 12) :
    (dats m 0 c).leaves 1 t = iprop(∃ d, owns (c : Thread nD τ) (ms0_1 t) fullShare ((dats m 0 c).before 1 t d)) :=
  Dat.leaves_idle (dats m 0 c) 1 t (idleAt0_1 t h12) (noFlush0_1 t h12)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point: the input's buffer holds its block and, past the array's end, words nothing names; the
    point's column tile selects the case; the invariant hands the body the two scratch buffers at the running pair
    the point before left (at anything at the first point) and takes them back at this point's pair. At the last
    column tile the pair does not depend on the unnamed words (`last_indep`): the mask selects them away. -/
theorem sound_body (c : Dev nD) (t : Fin cfg0.N)
    (last_indep : ∀ (d : S512x4096.Idx → Elt F .f32) (xm xl : Vec F S512x1 .f32), t.val % 13 = 12 →
      k0_pay9 (grid0.coords t) (win0_0.fill (grid0.coords t) d (iblk m c 0 t)) xm = k0_pay9 (grid0.coords t) (tile m c t) xm
      ∧ k0_pay8 (grid0.coords t) (win0_0.fill (grid0.coords t) d (iblk m c 0 t)) xm xl = k0_pay8 (grid0.coords t) (tile m c t) xm xl) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ, leaves0_0]
  by_cases h12 : t.val % 13 = 12
  · have hz : t.val ≠ 0 := by omega
    rw [leaves0_1_last m c t h12, outsAt0_last m c t h12, PhiS_castSucc m c t, PhiS_pos m c _ _ hz]
    iintro ⟨⟨⟨HM, HL⟩, Hg⟩, Ho, ⟨%d0, H0⟩, ⟨%d1, H1⟩⟩
    have hp : t.val - 1 < cfg0.N := Nat.lt_of_le_of_lt (Nat.sub_le _ _) t.isLt
    rw [← (last_indep d0 (outsAt0 m c (t.val - 1) hp).2.1 (outsAt0 m c (t.val - 1) hp).2.2 h12).1,
      ← (last_indep d0 (outsAt0 m c (t.val - 1) hp).2.1 (outsAt0 m c (t.val - 1) hp).2.2 h12).2]
    iapply (runC c (grid0.coords t) _ (hs0_0 t) _ (hs0_1 t) _ (Memref.isWhole_whole _) _ (Memref.isWhole_whole _)
      (fun h => by have := (hcond0_0 t).mp h; omega) (fun h => ((hcond0_1 t).mp h) h12) ((hcond0_2 t).mpr h12)
      (win0_0.fill (grid0.coords t) d0 (iblk m c 0 t)) _ _ Set.univ _)
    isplitl [H0]; · iexact H0
    isplitl [H1]; · iexists _; iexact H1
    isplitl [HM]; · iexact HM
    isplitl [HL]; · iexact HL
    iintro ⟨H0, H1, HM, HL⟩
    isplitl [HM HL Hg]
    · isplitl [HM HL]
      · isplitl [HM]; · iexact HM
        iexact HL
      iexact Hg
    isplitl [Ho]; · iexact Ho
    isplitl [H0]; · iexists d0; iexact H0
    iexact H1
  · rw [leaves0_1_idle m c t h12]
    by_cases h0 : t.val % 13 = 0
    · rw [outsAt0_first m c t h0]
      by_cases hz : t.val = 0
      · rw [PhiS_castSucc m c t, PhiS_zero m c _ _ hz, PhiA0_eq]
        iintro ⟨⟨⟨HM, HL⟩, Hg⟩, Ho, ⟨%d0, H0⟩, ⟨%d1, H1⟩⟩
        rw [fill_full m c t h12 d0]
        iapply (runA c (grid0.coords t) _ (hs0_0 t) _ (hs0_1 t) _ (Memref.isWhole_whole _) _ (Memref.isWhole_whole _)
          ((hcond0_0 t).mpr h0) ((hcond0_1 t).mpr h12) (fun h => h12 ((hcond0_2 t).mp h)) (tile m c t) _ Set.univ _)
        isplitl [H0]; · iexact H0
        isplitl [H1]; · iexact H1
        isplitl [HM]; · iexact HM
        isplitl [HL]; · iexact HL
        iintro ⟨H0, H1, HM, HL⟩
        isplitl [HM HL Hg]
        · isplitl [HM HL]
          · isplitl [HM]; · iexact HM
            iexact HL
          iexact Hg
        isplitl [Ho]; · iexact Ho
        isplitl [H0]; · iexists (fun _ => zw); iexact H0
        iexists _; iexact H1
      · rw [PhiS_castSucc m c t, PhiS_pos m c _ _ hz]
        iintro ⟨⟨⟨HM, HL⟩, Hg⟩, Ho, ⟨%d0, H0⟩, ⟨%d1, H1⟩⟩
        rw [fill_full m c t h12 d0]
        iapply (runA c (grid0.coords t) _ (hs0_0 t) _ (hs0_1 t) _ (Memref.isWhole_whole _) _ (Memref.isWhole_whole _)
          ((hcond0_0 t).mpr h0) ((hcond0_1 t).mpr h12) (fun h => h12 ((hcond0_2 t).mp h)) (tile m c t) _ Set.univ _)
        isplitl [H0]; · iexact H0
        isplitl [H1]; · iexact H1
        isplitl [HM]; · iexists _; iexact HM
        isplitl [HL]; · iexists _; iexact HL
        iintro ⟨H0, H1, HM, HL⟩
        isplitl [HM HL Hg]
        · isplitl [HM HL]
          · isplitl [HM]; · iexact HM
            iexact HL
          iexact Hg
        isplitl [Ho]; · iexact Ho
        isplitl [H0]; · iexists (fun _ => zw); iexact H0
        iexists _; iexact H1
    · have hz : t.val ≠ 0 := fun h => h0 (by rw [h])
      rw [outsAt0_mid m c t h0 h12, PhiS_castSucc m c t, PhiS_pos m c _ _ hz]
      iintro ⟨⟨⟨HM, HL⟩, Hg⟩, Ho, ⟨%d0, H0⟩, ⟨%d1, H1⟩⟩
      rw [fill_full m c t h12 d0]
      iapply (runB c (grid0.coords t) _ (hs0_0 t) _ (hs0_1 t) _ (Memref.isWhole_whole _) _ (Memref.isWhole_whole _)
        (fun h => h0 ((hcond0_0 t).mp h)) ((hcond0_1 t).mpr h12) (fun h => h12 ((hcond0_2 t).mp h)) (tile m c t) _ _ _ Set.univ _)
      isplitl [H0]; · iexact H0
      isplitl [H1]; · iexact H1
      isplitl [HM]; · iexact HM
      isplitl [HL]; · iexact HL
      iintro ⟨H0, H1, HM, HL⟩
      isplitl [HM HL Hg]
      · isplitl [HM HL]
        · isplitl [HM]; · iexact HM
          iexact HL
        iexact Hg
      isplitl [Ho]; · iexact Ho
      isplitl [H0]; · iexists (fun _ => zw); iexact H0
      iexists _; iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t (fun d xm xl h12 => last_indep m c t d xm xl h12)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running pair is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HM, HL⟩, Hg⟩
  isplitl [HM HL]
  · isplitl [HM]
    · iexists _; iexact HM
    iexists _; iexact HL
  iexact Hg

theorem hout (c : Dev nD) : (dats m 0 c).Φ (Fin.last cfg0.N) ⊢ Pipeline.ΦA spec0 c :=
  Phi_out m c _ (by rw [Fin.val_last]; have : cfg0.N = 104 := N_0; omega)

/-! ## The run and the frame -/

set_option backward.isDefEq.respectTransparency.types false in
/-- From any memory with zero counters every weakly fair execution of @main terminates, each array of the pipeline
    ending at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealRuns.lean ====
/-
  The kernel body of the online log-sum-exp, run symbolically at each of its three kinds of grid point, for any
  float instance. A row block's 13 column tiles are visited in order; two scratch buffers carry the running
  maximum and the running sum of exponentials between them. At the FIRST tile the body resets the pair to
  (floor, 0) and folds the tile in; at a MIDDLE tile it folds the tile into the pair the tile before left; at the
  LAST tile it folds in the tile masked to the columns that exist, and stores `max + log sum` to the output.
  Each run says exactly which pure term of the loaded values every buffer ends with: every load and store is of a
  whole buffer, so a load reads the contents and a store leaves its payload.
-/
import proofs.«113945_j34471407518047_2_alg».proof.Proof.Gen.KernelIdeal.Frame
import proofs.«113945_j34471407518047_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three branch conditions of the body, as functions of the grid point: the column tile is the first one, -/
abbrev cond0_0 (i : grid0.Coords) : Prop := (Scalar.cmpi .ne (Scalar.extui (Scalar.cmpi .eq (BitVec.ofNat 32 (i 1).val) 0#32)) 0#32) = 1#1
/-- it is not the last one, -/
abbrev cond0_1 (i : grid0.Coords) : Prop := (Scalar.cmpi .ne (Scalar.extui (Scalar.xori (Scalar.cmpi .eq (BitVec.ofNat 32 (i 1).val) 12#32) 1#1)) 0#32) = 1#1
/-- it is the last one. -/
abbrev cond0_2 (i : grid0.Coords) : Prop := k0_cond3 i = 1#1

/-- The whole-buffer rectangle's offsets are zero. -/
theorem hz : (![0, 0] : Fin 2 → Nat) = fun _ => 0 := funext fun a => by fin_cases a <;> rfl

set_option maxHeartbeats 1000000 in
/-- THE FIRST COLUMN TILE of a row block: the body resets the running maximum to the floor and the running sum to
    zero, then folds the tile in — whatever the two scratch buffers held, they end at the tile's step from the
    initial pair; the input's and the idle output's buffers are handed back as found. -/
theorem runA (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : cond0_0 i) (hc1 : cond0_1 i) (hc2 : ¬cond0_2 i)
    (x0 : Vec F S512x4096 .f32) (xi1 : Vec F S512x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare xi1 ∗ owns (c : Thread nD τ) arg4 fullShare (k0_pay5 x0 (k0_pay1 (F := F))) ∗ owns (c : Thread nD τ) arg5 fullShare (k0_pay4 x0 (k0_pay1 (F := F)) (k0_pay2 (F := F)))) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%f1, %hf1, H1⟩, ⟨%dm, %fm, -, HM⟩, ⟨%dl, %fl, -, HL⟩, Hk⟩
  obtain rfl := harg2.eq_unread hf0; obtain rfl := harg3.eq_unread hf1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

set_option maxHeartbeats 1000000 in
/-- A MIDDLE COLUMN TILE: from the running pair the point before left, the two scratch buffers end at the tile's
    step from it. -/
theorem runB (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : ¬cond0_0 i) (hc1 : cond0_1 i) (hc2 : ¬cond0_2 i)
    (x0 : Vec F S512x4096 .f32) (xi1 xm xl : Vec F S512x1 .f32) (E : Set ℕ) (K : PUnit → sProp 𝕄) :
    iprop(owns (c : Thread nD τ) arg2 fullShare x0 ∗ owns (c : Thread nD τ) arg3 fullShare xi1 ∗ owns (c : Thread nD τ) arg4 fullShare xm ∗ owns (c : Thread nD τ) arg5 fullShare xl
        ∗ (iprop(owns (c : Thread nD τ) arg2 fullShare x0 ∗ owns (c : Thread nD τ) arg3 fullShare xi1 ∗ owns (c : Thread nD τ) arg4 fullShare (k0_pay5 x0 xm) ∗ owns (c : Thread nD τ) arg5 fullShare (k0_pay4 x0 xm xl)) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%f1, %hf1, H1⟩, ⟨%fm, %hfm, HM⟩, ⟨%fl, %hfl, HL⟩, Hk⟩
  obtain rfl := harg2.eq_unread hf0; obtain rfl := harg3.eq_unread hf1; obtain rfl := harg4.eq_unread hfm; obtain rfl := harg5.eq_unread hfl
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

set_option maxHeartbeats 1000000 in
/-- THE LAST COLUMN TILE: the masked step from the running pair, and the output's buffer, whatever it held, ends at
    the new maximum plus the logarithm of the new sum. -/
theorem runC (c : Dev nD) (i : grid0.Coords) (arg2 : Memref sig .tc .vmem S512x4096 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hc0 : ¬cond0_0 i) (hc1 : ¬cond0_1 i) (hc2 : cond0_2 i)
    (x0 : Vec F S512x4096 .f32) (xm xl : Vec F S512x1 .f32) (E : Set ℕ) (K : PUnit → sProp 𝕄) :
    iprop(owns (c : Thread nD τ) arg2 fullShare x0 ∗ (∃ d, owns (c : Thread nD τ) arg3 fullShare d) ∗ owns (c : Thread nD τ) arg4 fullShare xm ∗ owns (c : Thread nD τ) arg5 fullShare xl
        ∗ (iprop(owns (c : Thread nD τ) arg2 fullShare x0 ∗ owns (c : Thread nD τ) arg3 fullShare (k0_pay10 (k0_pay9 i x0 xm) (k0_pay8 i x0 xm xl)) ∗ owns (c : Thread nD τ) arg4 fullShare (k0_pay9 i x0 xm) ∗ owns (c : Thread nD τ) arg5 fullShare (k0_pay8 i x0 xm xl)) -∗ K ⟨⟩))
      ⊢ wp frame (wpE (defs₀ (F := F)) Variants.none c none) E (cc0__lse_kernel i arg2 harg2 arg3 harg3 arg4 harg4 arg5 harg5) K := by
  simp only [cc0__lse_kernel_eq_skeleton]; unfold cc0__lse_kernel_skel
  unfold owns
  iintro ⟨⟨%f0, %hf0, H0⟩, ⟨%d1, %f1, -, H1⟩, ⟨%fm, %hfm, HM⟩, ⟨%fl, %hfl, HL⟩, Hk⟩
  obtain rfl := harg2.eq_unread hf0; obtain rfl := harg4.eq_unread hfm; obtain rfl := harg5.eq_unread hfl
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  isplitl [HM]
  · iexists _; isplitr
    swap; · iexact HM
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])
  · iexists _; isplitr
    swap; · iexact HL
    ipureintro
    (try sl_unfold_run_names)
    rw [View.read_writes_eq_canon _ _ _ (fun y => ⟨_, List.mem_cons_self, View.mem_set_unit_zero hz inb_S512x1_S512x1_0_0 y⟩), View.canon_cons_unit_zero hz]
    (try simp only [View.readAt_eq_ld, harg2.read_unread, harg3.read_unread, harg4.read_unread, harg5.read_unread,
        View.ld_unit_zero (S := S512x4096) hz, View.ld_unit_zero (S := S512x1) hz,
        View.readCov_unit_zero (S := S512x1) arg4.view hz inb_S512x1_S512x1_0_0, View.readCov_unit_zero (S := S512x1) arg5.view hz inb_S512x1_S512x1_0_0])

end Cert.KernelIdeal.Body

end
-- ==== Proof.Mask.lean ====
/-
  The column mask of the last tile. At grid coordinate 12 on the column axis the tile's column `c` is the array's
  column `4096 * 12 + c`, and the mask bit at an index is `1` exactly when that column exists, that is, is below
  `50257`. The comparison is a signed 32-bit one of `12 * 4096 + c` with `50257`; both are far below `2 ^ 31`, so
  nothing wraps and the bit is the comparison of the natural numbers.
-/
import proofs.«113945_j34471407518047_2_alg».proof.Proof.Gen.KernelIdeal.Skeleton

namespace Cert.KernelIdeal.Mask

open Cert.KernelIdeal Cert.KernelIdeal.Gen Idealize.ShloMosaic

/-- The tile's base column: `12 * 4096` as a 32-bit word. -/
theorem base_eq : Scalar.muli (BitVec.ofNat 32 12) 4096#32 = 49152#32 := by decide

/-- Adding a tile column to the base column does not wrap. -/
theorem col_toNat (c : Nat) (hc : c < 4096) : (49152#32 + BitVec.ofNat 32 c).toNat = 49152 + c := by
  rw [BitVec.toNat_add, BitVec.toNat_ofNat, BitVec.toNat_ofNat]
  omega

/-- The mask bit at an index of the last tile is `1` exactly when the index's column exists in the array. -/
theorem mask_iff (i : grid0.Coords) (hi : (i 1).val = 12) (j : S512x4096.Idx) :
    k0_pay6 i j = 1#1 ↔ 4096 * 12 + (j 1).val < 50257 := by
  have hj : (j 1).val < 4096 := (j 1).isLt
  show IntOp.cmpi .slt (IntOp.addi (Scalar.muli (BitVec.ofNat 32 (i 1).val) 4096#32)
      (iota .tc S512x4096 32 [1] iota_S512x4096_d1_w32 j)) 50257#32 = 1#1 ↔ _
  have hio : iota .tc S512x4096 32 [1] iota_S512x4096_d1_w32 j = BitVec.ofNat 32 (j 1).val := by simp [iota]
  rw [hi, base_eq, hio, IntOp.cmpi_slt]
  show (49152#32 + BitVec.ofNat 32 (j 1).val).toInt < (50257#32 : BitVec 32).toInt ↔ _
  rw [BitVec.toInt_eq_toNat_of_lt (by rw [col_toNat _ hj]; omega), col_toNat _ hj,
    BitVec.toInt_eq_toNat_of_lt (by decide)]
  show ((49152 + (j 1).val : Nat) : Int) < ((50257 : Nat) : Int) ↔ _
  omega

end Cert.KernelIdeal.Mask
-- ==== Proof.IdealBody.lean ====
/-
  The frame of the online log-sum-exp kernel, for any float instance: the proof data of its one pipeline, the body
  obligation at every grid point, and the run.
  The grid is 8 row blocks by 13 column tiles, visited row block by row block. The input's window is fetched at
  every point; its last column tile overhangs the array (50257 = 12 · 4096 + 1105), so the fetch leaves words nothing
  names in the buffer past column 1105, and the obligation for that window speaks of the part inside the array only.
  The output's window is idle except at a row block's last tile, where the body stores into it and the pipeline
  writes it back. The two scratch buffers carry the running maximum and the running sum from tile to tile: the
  region invariant names their contents after every point (`outsAt0`, by recursion on the point), which is what lets
  the value of the output be read off afterwards. At the last tile the running pair does not depend on the unnamed
  words, because the body selects them away before it reduces (`last_indep`).
-/
import proofs.«113945_j34471407518047_2_alg».proof.Proof.IdealRuns
import proofs.«113945_j34471407518047_2_alg».proof.Proof.Mask

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid (104 points, 13 column tiles per row block) -/

theorem hcond0_0 : ∀ t : Fin cfg0.N, cond0_0 (grid0.coords t) ↔ t.val % 13 = 0 :=
  (by decide +kernel : ∀ t : Fin grid0.N, cond0_0 (grid0.coords t) ↔ t.val % 13 = 0)
theorem hcond0_1 : ∀ t : Fin cfg0.N, cond0_1 (grid0.coords t) ↔ ¬t.val % 13 = 12 :=
  (by decide +kernel : ∀ t : Fin grid0.N, cond0_1 (grid0.coords t) ↔ ¬t.val % 13 = 12)
theorem hcond0_2 : ∀ t : Fin cfg0.N, cond0_2 (grid0.coords t) ↔ t.val % 13 = 12 :=
  (by decide +kernel : ∀ t : Fin grid0.N, cond0_2 (grid0.coords t) ↔ t.val % 13 = 12)

/-- The output window is idle, and not written back, at every column tile but the last; there it is live. -/
theorem idleAt0_1 : ∀ t : Fin cfg0.N, ¬t.val % 13 = 12 → cfg0.idle 1 (grid0.coords t) = true :=
  (by decide +kernel : ∀ t : Fin grid0.N, ¬t.val % 13 = 12 → cfg0.idle 1 (grid0.coords t) = true)
theorem noFlush0_1 : ∀ t : Fin cfg0.N, ¬t.val % 13 = 12 → (cfg0.win 1).flush t = false :=
  (by decide +kernel : ∀ t : Fin grid0.N, ¬t.val % 13 = 12 → win0_1.flush t = false)
theorem liveAt0_1 : ∀ t : Fin cfg0.N, t.val % 13 = 12 → cfg0.idle 1 (grid0.coords t) = false :=
  (by decide +kernel : ∀ t : Fin grid0.N, t.val % 13 = 12 → cfg0.idle 1 (grid0.coords t) = false)

/-- Away from the last column tile the input's block lies inside the array: the fetch fills the whole buffer. -/
theorem xsize_full : ∀ t : Fin cfg0.N, ¬t.val % 13 = 12 → ∀ a, win0_0.xsize (grid0.coords t) a = S512x4096.size a :=
  (by decide +kernel : ∀ t : Fin grid0.N, ¬t.val % 13 = 12 → ∀ a, win0_0.xsize (grid0.coords t) a = S512x4096.size a)

/-! ## The staging and scratch memrefs -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers. -/
abbrev scM0 : Memref sig .tc .vmem S512x1 .f32 := Memref.whole cc0_scratch0
abbrev scM1 : Memref sig .tc .vmem S512x1 .f32 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the buffers hold after each point -/

/-- A word nothing reads: the filler of the input's buffer past the array's end, and of the idle output's slot in
    the state below. -/
def zw : Elt F .f32 := Scalar.ofBits .f32 0#32

/-- The input's staging buffer at point `t` on the part inside the array (its block), filled out with the filler. -/
def tile (c : Dev nD) (t : Fin cfg0.N) : Vec F S512x4096 .f32 :=
  win0_0.fill (grid0.coords t) (fun _ => zw) (iblk m c 0 t)

/-- One point's effect on (output buffer, running maximum, running sum): at a first column tile the step from the
    initial pair, at a middle one the step from the previous pair, at the last one the masked step and the output
    `max + log sum`. -/
def stepAt (t : Fin cfg0.N) (T : Vec F S512x4096 .f32) (s : Vec F S512x1 .f32 × Vec F S512x1 .f32 × Vec F S512x1 .f32) :
    Vec F S512x1 .f32 × Vec F S512x1 .f32 × Vec F S512x1 .f32 :=
  if t.val % 13 = 0 then ((fun _ => zw), k0_pay5 T (k0_pay1 (F := F)), k0_pay4 T (k0_pay1 (F := F)) (k0_pay2 (F := F)))
  else if t.val % 13 = 12 then
    (k0_pay10 (k0_pay9 (grid0.coords t) T s.2.1) (k0_pay8 (grid0.coords t) T s.2.1 s.2.2),
      k0_pay9 (grid0.coords t) T s.2.1, k0_pay8 (grid0.coords t) T s.2.1 s.2.2)
  else ((fun _ => zw), k0_pay5 T s.2.1, k0_pay4 T s.2.1 s.2.2)

/-- The state after the body at position `n`, by recursion on the point. -/
def outsAt0 (c : Dev nD) : (n : ℕ) → n < cfg0.N → Vec F S512x1 .f32 × Vec F S512x1 .f32 × Vec F S512x1 .f32
  | 0, hn => stepAt ⟨0, hn⟩ (tile m c ⟨0, hn⟩) ((fun _ => zw), (fun _ => zw), (fun _ => zw))
  | n + 1, hn => stepAt ⟨n + 1, hn⟩ (tile m c ⟨n + 1, hn⟩) (outsAt0 c n (Nat.lt_of_succ_lt hn))

theorem outsAt0_first (c : Dev nD) (t : Fin cfg0.N) (h0 : t.val % 13 = 0) :
    outsAt0 m c t.val t.isLt = ((fun _ => zw), k0_pay5 (tile m c t) (k0_pay1 (F := F)), k0_pay4 (tile m c t) (k0_pay1 (F := F)) (k0_pay2 (F := F))) := by
  obtain ⟨n, hn⟩ := t
  cases n with
  | zero => rw [outsAt0]; unfold stepAt; rw [if_pos h0]
  | succ n => rw [outsAt0]; unfold stepAt; rw [if_pos h0]

theorem outsAt0_mid (c : Dev nD) (t : Fin cfg0.N) (h0 : ¬t.val % 13 = 0) (h12 : ¬t.val % 13 = 12) :
    outsAt0 m c t.val t.isLt = ((fun _ => zw), k0_pay5 (tile m c t) (outsAt0 m c (t.val - 1) (Nat.lt_of_le_of_lt (Nat.sub_le _ _) t.isLt)).2.1,
      k0_pay4 (tile m c t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod _) h0
  | succ n => rw [outsAt0]; unfold stepAt; rw [if_neg h0, if_neg h12]; rfl

theorem outsAt0_last (c : Dev nD) (t : Fin cfg0.N) (h12 : t.val % 13 = 12) :
    outsAt0 m c t.val t.isLt =
      (k0_pay10 (k0_pay9 (grid0.coords t) (tile m c t) (outsAt0 m c (t.val - 1) (Nat.lt_of_le_of_lt (Nat.sub_le _ _) t.isLt)).2.1)
          (k0_pay8 (grid0.coords t) (tile m c t) (outsAt0 m c (t.val - 1) (Nat.lt_of_le_of_lt (Nat.sub_le _ _) t.isLt)).2.1 (outsAt0 m c (t.val - 1) (Nat.lt_of_le_of_lt (Nat.sub_le _ _) t.isLt)).2.2),
        k0_pay9 (grid0.coords t) (tile m c t) (outsAt0 m c (t.val - 1) (Nat.lt_of_le_of_lt (Nat.sub_le _ _) t.isLt)).2.1,
        k0_pay8 (grid0.coords t) (tile m c t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (show (0 : ℕ) % 13 = 12 from h12) (by decide)
  | succ n => rw [outsAt0]; unfold stepAt; rw [if_neg (show ¬(n + 1) % 13 = 0 from fun h => by have h' : (n + 1) % 13 = 12 := h12; omega), if_pos h12]; rfl

/-- The region invariant before position `n`: before the first point the class's; afterwards the two scratch
    buffers at the running pair the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2.1) ∗ owns (c : Thread nD τ) scM1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt0 m c n hn).2.1) ∗ owns (c : Thread nD τ) scM1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.1) ∗ owns (c : Thread nD τ) scM1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` the input's buffer at its tile and the
    output's at the state's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = tile m c t := by dsimp only [dats]
theorem after0_1 (c : Dev nD) (t : Fin cfg0.N) : (dats m 0 c).after 1 t = (outsAt0 m c t.val t.isLt).1 := by dsimp only [dats]

/-- The input's buffer as the body finds it: just fetched — its block on the part inside the array, `d` past it. -/
theorem before0_0 (c : Dev nD) (t : Fin cfg0.N) (d) :
    (dats m 0 c).before 0 t d = win0_0.fill (grid0.coords t) d (iblk m c 0 t) := by
  unfold Dat.before; rw [if_pos (fetch0_0 t)]; rfl

/-- Away from the last column tile the filler is nowhere: the buffer is the tile. -/
theorem fill_full (c : Dev nD) (t : Fin cfg0.N) (h12 : ¬t.val % 13 = 12) (d) :
    win0_0.fill (grid0.coords t) d (iblk m c 0 t) = tile m c t := by
  funext j
  unfold tile Window.fill
  have hm : win0_0.moved (grid0.coords t) j = true :=
    (win0_0.moved_iff _ j).mpr fun a => by rw [xsize_full t h12 a]; exact (j a).isLt
  rw [dif_pos hm, dif_pos hm]

/-! ## At the last column tile the unnamed words are masked away -/

/-- At a last column tile the part of the block inside the array is 512 rows by 1105 columns
    (50257 = 12 · 4096 + 1105), and the tile's number is 12. -/
theorem xsize_last : ∀ t : Fin cfg0.N, t.val % 13 = 12 → ∀ a, win0_0.xsize (grid0.coords t) a = (![512, 1105] : Fin 2 → ℕ) a :=
  (by decide +kernel : ∀ t : Fin grid0.N, t.val % 13 = 12 → ∀ a, win0_0.xsize (grid0.coords t) a = (![512, 1105] : Fin 2 → ℕ) a)
theorem coord_last : ∀ t : Fin cfg0.N, t.val % 13 = 12 → (grid0.coords t 1).val = 12 :=
  (by decide +kernel : ∀ t : Fin grid0.N, t.val % 13 = 12 → (grid0.coords t 1).val = 12)

/-- A select between two vectors sees its first operand only where the mask is set. -/
theorem select_congr_on {α : Type} {s : Shape} (k : IVec s 1) (a a' b : s.Idx → α) (h : ∀ j, k j = 1#1 → a j = a' j) :
    select k a b = select k a' b := by
  funext j
  show Scalar.select (k j) (a j) (b j) = Scalar.select (k j) (a' j) (b j)
  unfold Scalar.select
  split
  · rename_i hk; rw [h j hk]
  · rfl

/-- Where the last tile's mask is set the column exists, so the fetched buffer holds the array's word there
    whatever was in the buffer before. -/
theorem fill_agree (t : Fin cfg0.N) (h12 : t.val % 13 = 12) (d d' : S512x4096.Idx → Elt F .f32)
    (g : (win0_0.xblock (grid0.coords t)).Idx → Elt F .f32) (j : S512x4096.Idx) (hj : k0_pay6 (grid0.coords t) j = 1#1) :
    win0_0.fill (grid0.coords t) d g j = win0_0.fill (grid0.coords t) d' g j := by
  have hm : win0_0.moved (grid0.coords t) j = true := (win0_0.moved_iff _ j).mpr fun a => by
    rw [xsize_last t h12 a]
    match a with
    | ⟨0, _⟩ => exact (j 0).isLt
    | ⟨1, _⟩ =>
      have h := (Mask.mask_iff _ (coord_last t h12) j).mp hj
      show (j 1).val < 1105
      omega
  unfold Window.fill; rw [dif_pos hm, dif_pos hm]

/-- So the masked step of the last tile is the same function of the block inside the array whatever lies past it:
    the maximum is taken over the masked tile, and the summands off the mask are the constant zero. -/
theorem last_indep (c : Dev nD) (t : Fin cfg0.N) (d : S512x4096.Idx → Elt F .f32) (xm xl : Vec F S512x1 .f32) (h12 : t.val % 13 = 12) :
    k0_pay9 (grid0.coords t) (win0_0.fill (grid0.coords t) d (iblk m c 0 t)) xm = k0_pay9 (grid0.coords t) (tile m c t) xm
    ∧ k0_pay8 (grid0.coords t) (win0_0.fill (grid0.coords t) d (iblk m c 0 t)) xm xl = k0_pay8 (grid0.coords t) (tile m c t) xm xl := by
  have hsel : ∀ b : Vec F S512x4096 .f32, select (k0_pay6 (grid0.coords t)) (win0_0.fill (grid0.coords t) d (iblk m c 0 t)) b
      = select (k0_pay6 (grid0.coords t)) (tile m c t) b := fun b =>
    select_congr_on _ _ _ _ fun j hj => fill_agree t h12 _ _ _ j hj
  have hsel2 : ∀ (bc b : FVec F S512x4096 .f32), select (k0_pay6 (grid0.coords t)) (exp (subf (win0_0.fill (grid0.coords t) d (iblk m c 0 t)) bc)) b
      = select (k0_pay6 (grid0.coords t)) (exp (subf (tile m c t) bc)) b := fun bc b =>
    select_congr_on _ _ _ _ fun j hj => by
      show FloatOps.exp (FloatOps.subf (win0_0.fill (grid0.coords t) d (iblk m c 0 t) j) (bc j)) = FloatOps.exp (FloatOps.subf (tile m c t j) (bc j))
      rw [show win0_0.fill (grid0.coords t) d (iblk m c 0 t) j = tile m c t j from fill_agree t h12 _ _ _ j hj]
  have h7 : k0_pay7 (grid0.coords t) (win0_0.fill (grid0.coords t) d (iblk m c 0 t)) xm = k0_pay7 (grid0.coords t) (tile m c t) xm := by
    simp only [k0_pay7, hsel]
  constructor
  · simp only [k0_pay9, h7]
  · simp only [k0_pay8, h7, hsel2]

/-! ## The body obligation, at a generic point -/

/-- What the obligation states of the input's buffer after the body: the tile's block on the part inside the array. -/
theorem leaves0_0 (c : Dev nD) (t : Fin cfg0.N) :
    (dats m 0 c).leaves 0 t = iprop(∃ d, owns (c : Thread nD τ) (ms0_0 t) fullShare (win0_0.fill (grid0.coords t) d (iblk m c 0 t))) := by
  rw [show (dats m 0 c).leaves 0 t = iprop(∃ d, owns (c : Thread nD τ) (ms0_0 t) fullShare (win0_0.fill (grid0.coords t) d (win0_0.cut (grid0.coords t) ((dats m 0 c).after 0 t)))) from rfl,
    after0_0, show win0_0.cut (grid0.coords t) (tile m c t) = iblk m c 0 t from win0_0.cut_fill _ _ _]

/-- Of the output's buffer: at the last column tile the state's first component, -/
theorem leaves0_1_last (c : Dev nD) (t : Fin cfg0.N) (h12 : t.val % 13 = 12) :
    (dats m 0 c).leaves 1 t = owns (c : Thread nD τ) (ms0_1 t) fullShare ((outsAt0 m c t.val t.isLt).1) := by
  unfold Dat.leaves; rw [liveAt0_1 t h12, after0_1]
/-- elsewhere what the body found there. -/
theorem leaves0_1_idle (c : Dev nD) (t : Fin cfg0.N) (h12 : ¬t.val % 13 = 12) :
    (dats m 0 c).leaves 1 t = iprop(∃ d, owns (c : Thread nD τ) (ms0_1 t) fullShare ((dats m 0 c).before 1 t d)) :=
  Dat.leaves_idle (dats m 0 c) 1 t (idleAt0_1 t h12) (noFlush0_1 t h12)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point: the input's buffer holds its block and, past the array's end, words nothing names; the
    point's column tile selects the case; the invariant hands the body the two scratch buffers at the running pair
    the point before left (at anything at the first point) and takes them back at this point's pair. At the last
    column tile the pair does not depend on the unnamed words (`last_indep`): the mask selects them away. -/
theorem sound_body (c : Dev nD) (t : Fin cfg0.N)
    (last_indep : ∀ (d : S512x4096.Idx → Elt F .f32) (xm xl : Vec F S512x1 .f32), t.val % 13 = 12 →
      k0_pay9 (grid0.coords t) (win0_0.fill (grid0.coords t) d (iblk m c 0 t)) xm = k0_pay9 (grid0.coords t) (tile m c t) xm
      ∧ k0_pay8 (grid0.coords t) (win0_0.fill (grid0.coords t) d (iblk m c 0 t)) xm xl = k0_pay8 (grid0.coords t) (tile m c t) xm xl) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ, leaves0_0]
  by_cases h12 : t.val % 13 = 12
  · have hz : t.val ≠ 0 := by omega
    rw [leaves0_1_last m c t h12, outsAt0_last m c t h12, PhiS_castSucc m c t, PhiS_pos m c _ _ hz]
    iintro ⟨⟨⟨HM, HL⟩, Hg⟩, Ho, ⟨%d0, H0⟩, ⟨%d1, H1⟩⟩
    have hp : t.val - 1 < cfg0.N := Nat.lt_of_le_of_lt (Nat.sub_le _ _) t.isLt
    rw [← (last_indep d0 (outsAt0 m c (t.val - 1) hp).2.1 (outsAt0 m c (t.val - 1) hp).2.2 h12).1,
      ← (last_indep d0 (outsAt0 m c (t.val - 1) hp).2.1 (outsAt0 m c (t.val - 1) hp).2.2 h12).2]
    iapply (runC c (grid0.coords t) _ (hs0_0 t) _ (hs0_1 t) _ (Memref.isWhole_whole _) _ (Memref.isWhole_whole _)
      (fun h => by have := (hcond0_0 t).mp h; omega) (fun h => ((hcond0_1 t).mp h) h12) ((hcond0_2 t).mpr h12)
      (win0_0.fill (grid0.coords t) d0 (iblk m c 0 t)) _ _ Set.univ _)
    isplitl [H0]; · iexact H0
    isplitl [H1]; · iexists _; iexact H1
    isplitl [HM]; · iexact HM
    isplitl [HL]; · iexact HL
    iintro ⟨H0, H1, HM, HL⟩
    isplitl [HM HL Hg]
    · isplitl [HM HL]
      · isplitl [HM]; · iexact HM
        iexact HL
      iexact Hg
    isplitl [Ho]; · iexact Ho
    isplitl [H0]; · iexists d0; iexact H0
    iexact H1
  · rw [leaves0_1_idle m c t h12]
    by_cases h0 : t.val % 13 = 0
    · rw [outsAt0_first m c t h0]
      by_cases hz : t.val = 0
      · rw [PhiS_castSucc m c t, PhiS_zero m c _ _ hz, PhiA0_eq]
        iintro ⟨⟨⟨HM, HL⟩, Hg⟩, Ho, ⟨%d0, H0⟩, ⟨%d1, H1⟩⟩
        rw [fill_full m c t h12 d0]
        iapply (runA c (grid0.coords t) _ (hs0_0 t) _ (hs0_1 t) _ (Memref.isWhole_whole _) _ (Memref.isWhole_whole _)
          ((hcond0_0 t).mpr h0) ((hcond0_1 t).mpr h12) (fun h => h12 ((hcond0_2 t).mp h)) (tile m c t) _ Set.univ _)
        isplitl [H0]; · iexact H0
        isplitl [H1]; · iexact H1
        isplitl [HM]; · iexact HM
        isplitl [HL]; · iexact HL
        iintro ⟨H0, H1, HM, HL⟩
        isplitl [HM HL Hg]
        · isplitl [HM HL]
          · isplitl [HM]; · iexact HM
            iexact HL
          iexact Hg
        isplitl [Ho]; · iexact Ho
        isplitl [H0]; · iexists (fun _ => zw); iexact H0
        iexists _; iexact H1
      · rw [PhiS_castSucc m c t, PhiS_pos m c _ _ hz]
        iintro ⟨⟨⟨HM, HL⟩, Hg⟩, Ho, ⟨%d0, H0⟩, ⟨%d1, H1⟩⟩
        rw [fill_full m c t h12 d0]
        iapply (runA c (grid0.coords t) _ (hs0_0 t) _ (hs0_1 t) _ (Memref.isWhole_whole _) _ (Memref.isWhole_whole _)
          ((hcond0_0 t).mpr h0) ((hcond0_1 t).mpr h12) (fun h => h12 ((hcond0_2 t).mp h)) (tile m c t) _ Set.univ _)
        isplitl [H0]; · iexact H0
        isplitl [H1]; · iexact H1
        isplitl [HM]; · iexists _; iexact HM
        isplitl [HL]; · iexists _; iexact HL
        iintro ⟨H0, H1, HM, HL⟩
        isplitl [HM HL Hg]
        · isplitl [HM HL]
          · isplitl [HM]; · iexact HM
            iexact HL
          iexact Hg
        isplitl [Ho]; · iexact Ho
        isplitl [H0]; · iexists (fun _ => zw); iexact H0
        iexists _; iexact H1
    · have hz : t.val ≠ 0 := fun h => h0 (by rw [h])
      rw [outsAt0_mid m c t h0 h12, PhiS_castSucc m c t, PhiS_pos m c _ _ hz]
      iintro ⟨⟨⟨HM, HL⟩, Hg⟩, Ho, ⟨%d0, H0⟩, ⟨%d1, H1⟩⟩
      rw [fill_full m c t h12 d0]
      iapply (runB c (grid0.coords t) _ (hs0_0 t) _ (hs0_1 t) _ (Memref.isWhole_whole _) _ (Memref.isWhole_whole _)
        (fun h => h0 ((hcond0_0 t).mp h)) ((hcond0_1 t).mpr h12) (fun h => h12 ((hcond0_2 t).mp h)) (tile m c t) _ _ _ Set.univ _)
      isplitl [H0]; · iexact H0
      isplitl [H1]; · iexact H1
      isplitl [HM]; · iexact HM
      isplitl [HL]; · iexact HL
      iintro ⟨H0, H1, HM, HL⟩
      isplitl [HM HL Hg]
      · isplitl [HM HL]
        · isplitl [HM]; · iexact HM
          iexact HL
        iexact Hg
      isplitl [Ho]; · iexact Ho
      isplitl [H0]; · iexists (fun _ => zw); iexact H0
      iexists _; iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t (fun d xm xl h12 => last_indep m c t d xm xl h12)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running pair is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HM, HL⟩, Hg⟩
  isplitl [HM HL]
  · isplitl [HM]
    · iexists _; iexact HM
    iexists _; iexact HL
  iexact Hg

theorem hout (c : Dev nD) : (dats m 0 c).Φ (Fin.last cfg0.N) ⊢ Pipeline.ΦA spec0 c :=
  Phi_out m c _ (by rw [Fin.val_last]; have : cfg0.N = 104 := N_0; omega)

/-! ## The run and the frame -/

set_option backward.isDefEq.respectTransparency.types false in
/-- From any memory with zero counters every weakly fair execution of @main terminates, each array of the pipeline
    ending at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.RowDefs.lean ====
/-
  The running state of the row-wise log-sum-exp and its steps, as the kernel's payloads compute them on the extended
  reals: the state is the pair (running maximum, running sum), one entry per row; `start` is what the first tile's
  prologue stores; `stepFull` is what a full tile of columns stores from the state it loads; `stepLast` is the same
  for the last, masked, tile; `stateAfter T j` is the state after the full tiles `T 0 … T j`.
-/
import proofs.«113945_j34471407518047_2_alg».proof.Proof.Gen.KernelIdeal.Skeleton
import Idealize.ShloMosaic.PureOps.Ideal

noncomputable section

namespace Cert.KernelIdeal.RowValue

open Cert.KernelIdeal Cert.KernelIdeal.Gen Idealize.ShloMosaic

/-- The running maximum and the running sum, one entry per row of the block. -/
abbrev State : Type := Vec Ideal S512x1 .f32 × Vec Ideal S512x1 .f32

/-- A full tile `v3` of columns: the new running maximum and the new running sum from the old ones. -/
def stepFull (v3 : Vec Ideal S512x4096 .f32) (s : State) : State :=
  (k0_pay5 (F := Ideal) v3 s.1, k0_pay4 (F := Ideal) v3 s.1 s.2)

/-- The last tile `v3`, masked to the columns that exist, at grid coordinates `i`. -/
def stepLast (i : grid0.Coords) (v3 : Vec Ideal S512x4096 .f32) (s : State) : State :=
  (k0_pay9 (F := Ideal) i v3 s.1, k0_pay8 (F := Ideal) i v3 s.1 s.2)

/-- The state the first tile's prologue stores. -/
def start : State := (k0_pay1 (F := Ideal), k0_pay2 (F := Ideal))

/-- The state after the full tiles `T 0, …, T j`. -/
def stateAfter (T : ℕ → Vec Ideal S512x4096 .f32) : ℕ → State
  | 0 => stepFull (T 0) start
  | j + 1 => stepFull (T (j + 1)) (stateAfter T j)

end Cert.KernelIdeal.RowValue

end
-- ==== Proof.KState.lean ====
/-
  The kernel's state at the ideal instance, in closed recursion. A grid point `t` is row block `t / 13`, column
  tile `t % 13`; the input's buffer at `t`, at a row `p` and a column `k` of the tile whose array column
  `4096 · (t % 13) + k` exists, holds the array's word at row `512 · (t / 13) + p` and that column. Along a row block
  the running (maximum, sum) pair the region invariant names after tile `j ≤ 11` is the `j`-fold full step from the
  initial pair over the block's tiles, and the output's buffer after the last tile is `max + log sum` of the masked
  step from the pair after tile 11.
-/
import proofs.«113945_j34471407518047_2_alg».proof.Proof.IdealBody
import proofs.«113945_j34471407518047_2_alg».proof.Proof.RowDefs
import Idealize.ShloMosaic.Lib.ValueIdx

set_option maxRecDepth 16384

noncomputable section

namespace Cert.KernelIdeal.KValue

open Cert.KernelIdeal Cert.KernelIdeal.Gen Cert.KernelIdeal.Body Cert.KernelIdeal.RowValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The schedule, decided over the grid: the input's block index at point `t` is (row block, column tile), the
    output's (row block, 0). -/
theorem index_facts : ∀ t : Fin cfg0.N, win0_0.index t (0 : Fin 2) = t.val / 13 ∧ win0_0.index t (1 : Fin 2) = t.val % 13
    ∧ win0_1.index t (0 : Fin 2) = t.val / 13 ∧ win0_1.index t (1 : Fin 2) = 0 :=
  (by decide +kernel : ∀ t : Fin grid0.N, win0_0.index t (0 : Fin 2) = t.val / 13 ∧ win0_0.index t (1 : Fin 2) = t.val % 13
    ∧ win0_1.index t (0 : Fin 2) = t.val / 13 ∧ win0_1.index t (1 : Fin 2) = 0)

/-- The tile at a column that exists is the array's word. -/
theorem tile_apply (c : Dev nD) (t : Fin cfg0.N) (p : Fin 512) (k : Fin 4096) (hk : 4096 * (t.val % 13) + k.val < 50257)
    (hr : 512 * (t.val / 13) + p.val < 4096) :
    tile m c t (ix2 p k) = m ((c : Thread nD τ).loc main_arg0) (ix2 ⟨512 * (t.val / 13) + p.val, hr⟩ ⟨4096 * (t.val % 13) + k.val, hk⟩) := by
  have hm : win0_0.moved (grid0.coords t) (ix2 p k) = true := (win0_0.moved_iff _ _).mpr fun a => by
    by_cases h12 : t.val % 13 = 12
    · rw [xsize_last t h12 a]
      match a with
      | ⟨0, _⟩ => exact p.isLt
      | ⟨1, _⟩ => show k.val < 1105; omega
    · rw [xsize_full t h12 a]
      match a with
      | ⟨0, _⟩ => exact p.isLt
      | ⟨1, _⟩ => exact k.isLt
  unfold tile Window.fill
  rw [dif_pos hm]
  obtain ⟨e0, e1, -, -⟩ := index_facts t
  show V m c main_arg0 (((cfg0.win 0).blk t).view.emb _) = _
  rw [V_main_arg0]
  refine congrArg _ (funext fun a => Fin.ext ?_)
  match a with
  | ⟨0, _⟩ => show win0_0.index t (0 : Fin 2) * 512 + 1 * p.val = 512 * (t.val / 13) + p.val; omega
  | ⟨1, _⟩ => show win0_0.index t (1 : Fin 2) * 4096 + 1 * k.val = 4096 * (t.val % 13) + k.val; omega

/-- The tiles of row block `b0`, by column tile (anything past the grid). -/
def tiles (c : Dev nD) (b0 : ℕ) : ℕ → Vec Ideal S512x4096 .f32 := fun j =>
  if h : 13 * b0 + j < cfg0.N then tile m c ⟨13 * b0 + j, h⟩ else fun _ => 0

theorem tiles_eq (c : Dev nD) (b0 j n : ℕ) (h : n < cfg0.N) (hn : n = 13 * b0 + j) : tiles m c b0 j = tile m c ⟨n, h⟩ := by
  subst hn; unfold tiles; rw [dif_pos h]

/-- After column tile `j ≤ 11` of row block `b0` the running pair is the `j`-fold full step over the block's tiles. -/
theorem state_eq (c : Dev nD) (b0 : ℕ) : ∀ (j n : ℕ) (h : n < cfg0.N), n = 13 * b0 + j → j ≤ 11 →
    ((outsAt0 m c n h).2.1, (outsAt0 m c n h).2.2) = stateAfter (tiles m c b0) j
  | 0, n, h, hn, _ => by
    have e := outsAt0_first m c ⟨n, h⟩ (show n % 13 = 0 by omega)
    rw [show outsAt0 m c n h = _ from e, show stateAfter (tiles m c b0) 0 = stepFull (tiles m c b0 0) start from rfl,
      tiles_eq m c b0 0 n h hn]
    rfl
  | j + 1, n, h, hn, hj => by
    have e := outsAt0_mid m c ⟨n, h⟩ (show ¬n % 13 = 0 by omega) (show ¬n % 13 = 12 by omega)
    have ih := state_eq c b0 j (n - 1) (by omega) (by omega) (by omega)
    rw [show outsAt0 m c n h = _ from e, show stateAfter (tiles m c b0) (j + 1) = stepFull (tiles m c b0 (j + 1)) (stateAfter (tiles m c b0) j) from rfl,
      tiles_eq m c b0 (j + 1) n h hn, ← ih]
    rfl

/-- After the last column tile of row block `b0` the output's buffer is `max + log sum` of the masked step from the
    pair after tile 11. -/
theorem out_state (c : Dev nD) (b0 n : ℕ) (h : n < cfg0.N) (hn : n = 13 * b0 + 12) :
    (outsAt0 m c n h).1 = k0_pay10 (F := Ideal) (stepLast (grid0.coords ⟨n, h⟩) (tiles m c b0 12) (stateAfter (tiles m c b0) 11)).1
      (stepLast (grid0.coords ⟨n, h⟩) (tiles m c b0 12) (stateAfter (tiles m c b0) 11)).2 := by
  have e := outsAt0_last m c ⟨n, h⟩ (show n % 13 = 12 by omega)
  have ih := state_eq m c b0 11 (n - 1) (by omega) (by omega) (by omega)
  rw [show outsAt0 m c n h = _ from e, tiles_eq m c b0 12 n h hn, ← ih]
  rfl

end Cert.KernelIdeal.KValue

end
-- ==== Proof.RowArith.lean ====
/-
  The arithmetic of one step of the running log-sum-exp, on the extended reals, with every value a coerced real:
  a finite sum of coerced reals is the coerced sum; the maximum of a coerced real with a fold of `max` from `⊥`
  over coerced reals is a coerced real; and the step itself: if the running maximum is `μ` and the running sum is
  `∑ c < n, exp (x c - μ)`, then after taking the maximum `μ'` with the next entries and rescaling the old sum
  by `exp (μ - μ')` and adding the next `w` terms `exp (x (n + k) - μ')` (the remaining terms of the tile being
  zero), the running sum is `∑ c < n + w, exp (x c - μ')`.
-/
import Idealize.ShloMosaic.PureOps.Ideal

noncomputable section

namespace Cert.KernelIdeal.RowArith

open Idealize.ShloMosaic
open scoped BigOperators

/-- A finite sum of coerced reals is the coerced sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The coercion of the reals into the extended reals commutes with `max`. -/
theorem coe_max (a b : ℝ) : ((max a b : ℝ) : EReal) = max (a : EReal) (b : EReal) :=
  EReal.coe_strictMono.monotone.map_max

/-- The maximum of a coerced real with a fold of `max` from `⊥` over coerced reals is a coerced real. -/
theorem max_fold_coe {ι : Type} (s : Finset ι) (g : ι → EReal) (hg : ∀ k ∈ s, ∃ r : ℝ, g k = r) (μ : ℝ) :
    ∃ r : ℝ, max (μ : EReal) (s.fold max ⊥ g) = r := by
  classical
  induction s using Finset.induction_on with
  | empty => exact ⟨μ, by simp⟩
  | insert a s ha ih =>
    obtain ⟨r, hr⟩ := ih (fun k hk => hg k (Finset.mem_insert_of_mem hk))
    obtain ⟨ra, hra⟩ := hg a (Finset.mem_insert_self a s)
    refine ⟨max ra r, ?_⟩
    rw [Finset.fold_insert ha, hra, max_left_comm, hr, coe_max]

/-- The sum over a tile of `4096` entries of which only the first `w` count is the sum over `range w`. -/
theorem sum_fin_ite (w : ℕ) (hw : w ≤ 4096) (f : ℕ → ℝ) :
    ∑ k : Fin 4096, (if k.val < w then ((f k.val : ℝ) : EReal) else 0) = ((∑ k ∈ Finset.range w, f k : ℝ) : EReal) := by
  have h1 : ∀ k : Fin 4096, (if k.val < w then ((f k.val : ℝ) : EReal) else 0)
      = (((if k.val < w then f k.val else 0) : ℝ) : EReal) := fun k => by
    split_ifs <;> simp
  rw [Finset.sum_congr rfl fun k _ => h1 k, coe_sum]
  congr 1
  rw [← Finset.sum_range (fun i => if i < w then f i else 0), ← Finset.sum_filter]
  refine Finset.sum_congr ?_ fun _ _ => rfl
  ext i
  simp only [Finset.mem_filter, Finset.mem_range]
  omega

/-- One step of the running log-sum-exp of a row `x`. Before it the running maximum is the real `μ` and the running
    sum is `∑ c < n, exp (x c - μ)`. The new maximum `M'` is the maximum of `μ` with the fold of `max` from `⊥`
    over the tile's entries `g k`, all of them real, so it is a real `μ'`; the new sum `L'` is the old one times
    `exp (μ - μ')` plus the tile's terms `h k`, which are `exp (x (n + k) - μ')` for the first `w` columns of the
    tile and zero after them. Then `L'` is `∑ c < n + w, exp (x c - μ')`. -/
theorem step_arith (x : ℕ → ℝ) (n w : ℕ) (hw : w ≤ 4096) (g h : Fin 4096 → EReal) (μ : ℝ) (M' L' : EReal)
    (hM : M' = max (μ : EReal) (Finset.univ.fold max ⊥ g)) (hg : ∀ k, ∃ r : ℝ, g k = r)
    (hL : L' = Ideal.exp ((μ : EReal) - M') * ((∑ c ∈ Finset.range n, Real.exp (x c - μ) : ℝ) : EReal) + ∑ k, h k)
    (hh : ∀ μ' : ℝ, M' = (μ' : EReal) → ∀ k : Fin 4096,
        h k = if k.val < w then ((Real.exp (x (n + k.val) - μ') : ℝ) : EReal) else 0) :
    ∃ μ' : ℝ, M' = (μ' : EReal) ∧ L' = ((∑ c ∈ Finset.range (n + w), Real.exp (x c - μ') : ℝ) : EReal) := by
  obtain ⟨μ', hμ'⟩ := max_fold_coe Finset.univ g (fun k _ => hg k) μ
  rw [← hM] at hμ'
  refine ⟨μ', hμ', ?_⟩
  rw [hL, Finset.sum_congr rfl fun k _ => hh μ' hμ' k, sum_fin_ite w hw (fun k => Real.exp (x (n + k) - μ')), hμ',
    ← EReal.coe_sub, Ideal.exp_coe, ← EReal.coe_mul, ← EReal.coe_add]
  congr 1
  rw [Finset.sum_range_add, Finset.mul_sum]
  congr 1
  refine Finset.sum_congr rfl fun c _ => ?_
  rw [← Real.exp_add]
  congr 1
  ring

end Cert.KernelIdeal.RowArith

end
-- ==== Proof.RowPay.lean ====
/-
  The kernel body's payloads read at one row, on the extended reals. Each payload is a vector expression over the
  values loaded before it; read at row `p` (and column `0` of the one-column state vectors) it is a scalar
  expression in the row's entries: a row maximum is the fold of `max` from `⊥` over the row, a row sum the finite
  sum over the row, a broadcast column vector its entry of that row, a select the choice by the mask bit.
-/
import proofs.«113945_j34471407518047_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RowPay

open Cert.KernelIdeal Cert.KernelIdeal.Gen Idealize.ShloMosaic Idealize.ShloMosaic.ValueIdx
open scoped BigOperators

/-! ## Vector operations at an index -/

/-- An exponential at an index is the exponential of the element. -/
theorem vexp_apply {s : Shape} {φ : FTy} (x : FVec Ideal s φ) (i : s.Idx) : exp x i = Ideal.exp (x i) := rfl

/-- A logarithm at an index is the logarithm of the element. -/
theorem vlog_apply {s : Shape} {φ : FTy} (x : FVec Ideal s φ) (i : s.Idx) : log x i = Ideal.log (x i) := rfl

/-- The index of the reduced row `p` with column `k` inserted is `(p, k)`. -/
theorem lift_eq (p : Fin 512) (k : Fin 4096) :
    reduces_S512x4096_S512.lift (ix1 p) k = ix2 p k := by
  funext c
  match c with
  | ⟨0, _⟩ => rfl
  | ⟨1, _⟩ => rfl

/-- The pattern of `-∞` denotes the bottom of the extended reals. -/
theorem negInf_eq : Ideal.ofBits .f32 0xFF800000#32 = ⊥ := by simp [Ideal.ofBits, Ideal.ieee]

/-- The finite floor `-2.38e38` of the running maximum is a real number. -/
theorem floor_real : ∃ ν : ℝ, Ideal.ofBits .f32 0xFF333332#32 = (ν : EReal) := by
  have h1 : ((0xFF333332#32 : BitVec 32).extractLsb' 23 8).toNat ≠ 2 ^ 8 - 1 := by decide
  have h2 : ((0xFF333332#32 : BitVec 32).extractLsb' 23 8).toNat ≠ 0 := by decide
  unfold Ideal.ofBits Ideal.ieee
  simp only [if_neg h1, if_neg h2]
  exact ⟨_, rfl⟩

/-- The pattern of `+0.0` denotes zero. -/
theorem zero_eq : Ideal.ofBits .f32 0x00000000#32 = 0 := Ideal.ofBits_zero_f32

/-- A row maximum: the reduction by `max` over the columns, re-shaped to a column vector, read at row `p`, is the
    fold of `max` from `⊥` over the row's entries. -/
theorem rowMax_apply (v : Vec Ideal S512x4096 .f32) (p : Fin 512) :
    shapeCast S512x1 (multiReduction (F := Ideal) .maximumf [1] S512 v 0xFF800000#32 reduces_S512x4096_S512 (.inl rfl) rfl)
        shapeCasts_S512_S512x1 (ix2 p 0)
      = (Finset.univ : Finset (Fin 4096)).fold max ⊥ fun k => v (ix2 p k) := by
  refine (shapeCast_apply _ _ (ix2 p 0) (ix1 p) ?_).trans ?_
  · rw [Shape.rowMajor_val_one, Shape.rowMajor_val_two]; show p.val = p.val * 1 + 0; omega
  · refine (Ideal.multiReduction_maximumf_single _ _ _ _ _ _).trans ?_
    show (Finset.univ : Finset (Fin 4096)).fold max (Ideal.ofBits .f32 0xFF800000#32) (v ∘ reduces_S512x4096_S512.lift (ix1 p)) = _
    rw [negInf_eq]
    congr 1
    funext k
    exact congrArg v (lift_eq p k)

/-- A row sum: the reduction by addition over the columns, re-shaped to a column vector, read at row `p`, is the
    sum of the row's entries. -/
theorem rowSum_apply (v : Vec Ideal S512x4096 .f32) (p : Fin 512) :
    shapeCast S512x1 (multiReduction (F := Ideal) .add [1] S512 v 0x00000000#32 reduces_S512x4096_S512 (.inl rfl) rfl)
        shapeCasts_S512_S512x1 (ix2 p 0)
      = ∑ k : Fin 4096, v (ix2 p k) := by
  refine (shapeCast_apply _ _ (ix2 p 0) (ix1 p) ?_).trans ?_
  · rw [Shape.rowMajor_val_one, Shape.rowMajor_val_two]; show p.val = p.val * 1 + 0; omega
  · refine (Ideal.multiReduction_add_single _ _ _ _ _ _).trans ?_
    show ∑ k : Fin 4096, v (reduces_S512x4096_S512.lift (ix1 p) k) = _
    exact Finset.sum_congr rfl fun k _ => congrArg v (lift_eq p k)

/-- A column vector broadcast along the columns reads, at `(p, k)`, its entry of row `p`. -/
theorem bcast_apply (y : Vec Ideal S512x1 .f32) (p : Fin 512) (k : Fin 4096) :
    broadcastTo S512x4096 y broadcasts_S512x1_S512x4096 (ix2 p k) = y (ix2 p 0) := by
  refine broadcastTo_apply _ _ (ix2 p k) (ix2 p 0) fun a => ?_
  match a with
  | ⟨0, _⟩ => rfl
  | ⟨1, _⟩ => rfl

/-! ## The prologue -/

/-- The running maximum starts at the finite floor. -/
theorem pay1_apply (p : Fin 512) : k0_pay1 (F := Ideal) (ix2 p 0) = Ideal.ofBits .f32 0xFF333332#32 := by
  unfold k0_pay1
  rw [shapeCast_self]
  rfl

/-- The running sum starts at zero. -/
theorem pay2_apply (p : Fin 512) : k0_pay2 (F := Ideal) (ix2 p 0) = 0 := by
  unfold k0_pay2
  rw [shapeCast_self]
  exact zero_eq

/-! ## A full tile -/

/-- The new running maximum of a full tile at row `p`: the maximum of the old one with the row's maximum. -/
theorem pay3_apply (v3 : Vec Ideal S512x4096 .f32) (m : Vec Ideal S512x1 .f32) (p : Fin 512) :
    k0_pay3 (F := Ideal) v3 m (ix2 p 0)
      = max (m (ix2 p 0) : EReal) ((Finset.univ : Finset (Fin 4096)).fold max (⊥ : EReal) fun k => (v3 (ix2 p k) : EReal)) := by
  unfold k0_pay3
  dsimp only
  rw [maximumf_apply, rowMax_apply]

/-- What a full tile stores as the running maximum is that new maximum. -/
theorem pay5_eq (v3 : Vec Ideal S512x4096 .f32) (m : Vec Ideal S512x1 .f32) :
    k0_pay5 (F := Ideal) v3 m = k0_pay3 (F := Ideal) v3 m :=
  shapeCast_self _ _

/-- The new running sum of a full tile at row `p`: the old one rescaled by `exp (m - m')`, plus the sum over the
    row of `exp (entry - m')`, with `m'` the new running maximum. -/
theorem pay4_apply (v3 : Vec Ideal S512x4096 .f32) (m l : Vec Ideal S512x1 .f32) (p : Fin 512) :
    k0_pay4 (F := Ideal) v3 m l (ix2 p 0)
      = Ideal.exp ((m (ix2 p 0) : EReal) - k0_pay3 (F := Ideal) v3 m (ix2 p 0)) * (l (ix2 p 0) : EReal)
        + ∑ k : Fin 4096, Ideal.exp ((v3 (ix2 p k) : EReal) - k0_pay3 (F := Ideal) v3 m (ix2 p 0)) := by
  unfold k0_pay4
  dsimp only
  rw [shapeCast_self, addf_apply, mulf_apply, rowSum_apply, vexp_apply, subf_apply]
  refine congrArg₂ (· + ·) rfl (Finset.sum_congr rfl fun k _ => ?_)
  rw [vexp_apply, subf_apply, bcast_apply]

/-! ## The last, masked, tile -/

/-- The new running maximum of the last tile at row `p`: the maximum of the old one with the maximum over the row
    of the entries where the mask is set and of the finite floor elsewhere. -/
theorem pay7_apply (i : grid0.Coords) (v3 : Vec Ideal S512x4096 .f32) (m : Vec Ideal S512x1 .f32) (p : Fin 512) :
    k0_pay7 (F := Ideal) i v3 m (ix2 p 0)
      = max (m (ix2 p 0) : EReal) ((Finset.univ : Finset (Fin 4096)).fold max (⊥ : EReal) fun k =>
          (Scalar.select (k0_pay6 i (ix2 p k)) (v3 (ix2 p k)) (Ideal.ofBits .f32 0xFF333332#32) : EReal)) := by
  unfold k0_pay7
  dsimp only
  rw [maximumf_apply, rowMax_apply]
  rfl

/-- What the last tile stores as the running maximum is that new maximum. -/
theorem pay9_eq (i : grid0.Coords) (v3 : Vec Ideal S512x4096 .f32) (m : Vec Ideal S512x1 .f32) :
    k0_pay9 (F := Ideal) i v3 m = k0_pay7 (F := Ideal) i v3 m :=
  shapeCast_self _ _

/-- The new running sum of the last tile at row `p`: the old one rescaled by `exp (m - m')`, plus the sum over the
    row of `exp (entry - m')` where the mask is set and of zero elsewhere. -/
theorem pay8_apply (i : grid0.Coords) (v3 : Vec Ideal S512x4096 .f32) (m l : Vec Ideal S512x1 .f32) (p : Fin 512) :
    k0_pay8 (F := Ideal) i v3 m l (ix2 p 0)
      = Ideal.exp ((m (ix2 p 0) : EReal) - k0_pay7 (F := Ideal) i v3 m (ix2 p 0)) * (l (ix2 p 0) : EReal)
        + ∑ k : Fin 4096, (Scalar.select (k0_pay6 i (ix2 p k))
            (Ideal.exp ((v3 (ix2 p k) : EReal) - k0_pay7 (F := Ideal) i v3 m (ix2 p 0))) 0 : EReal) := by
  unfold k0_pay8
  dsimp only
  rw [shapeCast_self, addf_apply, mulf_apply, rowSum_apply, vexp_apply, subf_apply]
  refine congrArg₂ (· + ·) rfl (Finset.sum_congr rfl fun k _ => ?_)
  rw [select_apply, vexp_apply, subf_apply, bcast_apply]
  exact congrArg (Scalar.select _ _) zero_eq

/-! ## The output -/

/-- The output at row `p`: the running maximum plus the logarithm of the running sum. -/
theorem pay10_apply (a b : Vec Ideal S512x1 .f32) (p : Fin 512) :
    k0_pay10 (F := Ideal) a b (ix2 p 0) = (a (ix2 p 0) : EReal) + Ideal.log (b (ix2 p 0)) := rfl

end Cert.KernelIdeal.RowPay

end
-- ==== Proof.Spec.lean ====
/-
  The mathematics both programs compute, row by row: the logarithm of the sum of the exponentials of a row of
  50257 real numbers, and its invariance under a shift of the exponents — for every real `a`,
  `a + log (∑ c, exp (x c - a)) = log (∑ c, exp (x c))`, because `exp (x - a) = exp x * exp (-a)`, the common
  factor leaves the sum, and the logarithm of a product of positive numbers is the sum of the logarithms.
  The kernel shifts by a running maximum that starts at a finite floor, the reference by the row's maximum;
  both are instances of this one law.
-/
import Idealize.ShloMosaic.PureOps.Ideal

noncomputable section

namespace Cert.Spec

/-- The number of classes: the length of a row. -/
abbrev C : ℕ := 50257

/-- The log-sum-exp of row `r` of a real matrix given by its entries `ξ r c`, over the columns `c < 50257`. -/
def rowLse (ξ : ℕ → ℕ → ℝ) (r : ℕ) : ℝ := Real.log (∑ c ∈ Finset.range C, Real.exp (ξ r c))

/-- The sum of exponentials of a row is positive. -/
theorem sumExp_pos (f : ℕ → ℝ) : 0 < ∑ c ∈ Finset.range C, Real.exp (f c) :=
  Finset.sum_pos (fun _ _ => Real.exp_pos _) ⟨0, Finset.mem_range.mpr (by decide)⟩

/-- Shift invariance: any real shift `a` of the exponents is undone by adding `a` to the logarithm. -/
theorem rowLse_shift (ξ : ℕ → ℕ → ℝ) (r : ℕ) (a : ℝ) :
    a + Real.log (∑ c ∈ Finset.range C, Real.exp (ξ r c - a)) = rowLse ξ r := by
  unfold rowLse
  have h1 : ∑ c ∈ Finset.range C, Real.exp (ξ r c - a)
      = Real.exp (-a) * ∑ c ∈ Finset.range C, Real.exp (ξ r c) := by
    rw [Finset.mul_sum]
    refine Finset.sum_congr rfl fun c _ => ?_
    rw [sub_eq_add_neg, Real.exp_add, mul_comm]
  rw [h1, Real.log_mul (Real.exp_pos _).ne' (sumExp_pos _).ne', Real.log_exp]
  ring

end Cert.Spec

end
-- ==== Proof.RowValue.lean ====
/-
  The value of the kernel body at one row, on the extended reals: the log-sum-exp of the row.

  The invariant. After the tiles covering the columns below `n`, the running maximum at row `p` is some real `μ`
  and the running sum there is `∑ c < n, exp (x c - μ)`, where `x c` is the row's entry in column `c`. The
  prologue establishes it at `n = 0` (the maximum starts at a finite floor, the sum at zero); a full tile takes it
  from `n` to `n + 4096`; the last tile, whose mask keeps the `1105` columns that exist, from `49152` to `50257`.
  Which real `μ` is never needed: the output `μ + log (∑ c < 50257, exp (x c - μ))` is the row's log-sum-exp for
  every real shift `μ`.
-/
import proofs.«113945_j34471407518047_2_alg».proof.Proof.RowDefs
import proofs.«113945_j34471407518047_2_alg».proof.Proof.RowArith
import proofs.«113945_j34471407518047_2_alg».proof.Proof.RowPay
import proofs.«113945_j34471407518047_2_alg».proof.Proof.Mask
import proofs.«113945_j34471407518047_2_alg».proof.Proof.Spec

noncomputable section

namespace Cert.KernelIdeal.RowValue

open Cert.KernelIdeal Cert.KernelIdeal.Gen Idealize.ShloMosaic Idealize.ShloMosaic.ValueIdx
open Cert.KernelIdeal.RowArith Cert.KernelIdeal.RowPay
open scoped BigOperators

/-- The row invariant: at row `p` the running maximum is a real `μ` and the running sum is
    `∑ c < n, exp (x c - μ)`. -/
def Inv (x : ℕ → ℝ) (p : Fin 512) (n : ℕ) (s : State) : Prop :=
  ∃ μ : ℝ, (s.1 (ix2 p 0) : EReal) = (μ : EReal)
    ∧ (s.2 (ix2 p 0) : EReal) = ((∑ c ∈ Finset.range n, Real.exp (x c - μ) : ℝ) : EReal)

/-- The prologue's state satisfies the invariant over no column. -/
theorem start_inv (x : ℕ → ℝ) (p : Fin 512) : Inv x p 0 start := by
  obtain ⟨ν, hν⟩ := floor_real
  refine ⟨ν, ?_, ?_⟩
  · show (k0_pay1 (F := Ideal) (ix2 p 0) : EReal) = _
    rw [pay1_apply, hν]
  · show (k0_pay2 (F := Ideal) (ix2 p 0) : EReal) = _
    rw [pay2_apply, Finset.sum_range_zero, EReal.coe_zero]

/-- A full tile whose row `p` holds the columns `n, …, n + 4095` of the row extends the invariant by them. -/
theorem stepFull_inv (x : ℕ → ℝ) (p : Fin 512) (n : ℕ) (v3 : Vec Ideal S512x4096 .f32) (s : State)
    (hv : ∀ k : Fin 4096, (v3 (ix2 p k) : EReal) = ((x (n + k.val) : ℝ) : EReal)) (hs : Inv x p n s) :
    Inv x p (n + 4096) (stepFull v3 s) := by
  obtain ⟨μ, hm, hl⟩ := hs
  have key := step_arith x n 4096 le_rfl (fun k => (v3 (ix2 p k) : EReal))
    (fun k => Ideal.exp ((v3 (ix2 p k) : EReal) - k0_pay3 (F := Ideal) v3 s.1 (ix2 p 0))) μ
    (k0_pay3 (F := Ideal) v3 s.1 (ix2 p 0)) (k0_pay4 (F := Ideal) v3 s.1 s.2 (ix2 p 0))
    (by rw [pay3_apply, hm]) (fun k => ⟨_, hv k⟩) (by rw [pay4_apply, hm, hl])
    (fun μ' hμ' k => by
      show Ideal.exp ((v3 (ix2 p k) : EReal) - k0_pay3 (F := Ideal) v3 s.1 (ix2 p 0)) = _
      rw [hμ', hv k, if_pos k.isLt, ← EReal.coe_sub, Ideal.exp_coe])
  obtain ⟨μ', h1, h2⟩ := key
  refine ⟨μ', ?_, h2⟩
  show (k0_pay5 (F := Ideal) v3 s.1 (ix2 p 0) : EReal) = _
  rw [pay5_eq]
  exact h1

/-- The last tile, at grid coordinate `12` on the column axis, whose row `p` holds the columns
    `49152, …, 50256` of the row in its first `1105` entries (and anything in the rest), completes the invariant. -/
theorem stepLast_inv (x : ℕ → ℝ) (p : Fin 512) (i : grid0.Coords) (hi : (i 1).val = 12)
    (v3 : Vec Ideal S512x4096 .f32) (s : State)
    (hv : ∀ k : Fin 4096, k.val < 1105 → (v3 (ix2 p k) : EReal) = ((x (49152 + k.val) : ℝ) : EReal))
    (hs : Inv x p 49152 s) : Inv x p 50257 (stepLast i v3 s) := by
  obtain ⟨μ, hm, hl⟩ := hs
  obtain ⟨ν, hν⟩ := floor_real
  have hmask : ∀ k : Fin 4096, k0_pay6 i (ix2 p k) = 1#1 ↔ k.val < 1105 := fun k => by
    rw [Mask.mask_iff i hi (ix2 p k)]
    show 4096 * 12 + k.val < 50257 ↔ _
    omega
  have hsel : ∀ (k : Fin 4096) (a b : EReal),
      Scalar.select (k0_pay6 i (ix2 p k)) a b = if k.val < 1105 then a else b := fun k a b => by
    unfold Scalar.select
    exact if_congr (hmask k) rfl rfl
  have key := step_arith x 49152 1105 (by norm_num)
    (fun k => Scalar.select (k0_pay6 i (ix2 p k)) (v3 (ix2 p k) : EReal) (Ideal.ofBits .f32 0xFF333332#32))
    (fun k => Scalar.select (k0_pay6 i (ix2 p k))
      (Ideal.exp ((v3 (ix2 p k) : EReal) - k0_pay7 (F := Ideal) i v3 s.1 (ix2 p 0))) 0)
    μ (k0_pay7 (F := Ideal) i v3 s.1 (ix2 p 0)) (k0_pay8 (F := Ideal) i v3 s.1 s.2 (ix2 p 0))
    (by rw [pay7_apply, hm])
    (fun k => by
      show ∃ r : ℝ, Scalar.select (k0_pay6 i (ix2 p k)) (v3 (ix2 p k) : EReal) (Ideal.ofBits .f32 0xFF333332#32) = r
      rw [hsel]
      by_cases hk : k.val < 1105
      · rw [if_pos hk]; exact ⟨_, hv k hk⟩
      · rw [if_neg hk]; exact ⟨ν, hν⟩)
    (by rw [pay8_apply, hm, hl])
    (fun μ' hμ' k => by
      show Scalar.select (k0_pay6 i (ix2 p k))
        (Ideal.exp ((v3 (ix2 p k) : EReal) - k0_pay7 (F := Ideal) i v3 s.1 (ix2 p 0))) 0 = _
      rw [hsel]
      by_cases hk : k.val < 1105
      · rw [if_pos hk, if_pos hk, hμ', hv k hk, ← EReal.coe_sub, Ideal.exp_coe]
      · rw [if_neg hk, if_neg hk])
  obtain ⟨μ', h1, h2⟩ := key
  refine ⟨μ', ?_, h2⟩
  show (k0_pay9 (F := Ideal) i v3 s.1 (ix2 p 0) : EReal) = _
  rw [pay9_eq]
  exact h1

/-- After the full tiles `T 0, …, T j` (`j < 12`) the invariant holds over the columns below `4096 * (j + 1)`. -/
theorem stateAfter_inv (ξ : ℕ → ℕ → ℝ) (T : ℕ → Vec Ideal S512x4096 .f32)
    (hT : ∀ (j : ℕ) (p : Fin 512) (k : Fin 4096), j < 13 → 4096 * j + k.val < 50257 →
      T j (ix2 p k) = ((ξ p.val (4096 * j + k.val) : ℝ) : EReal)) (p : Fin 512) :
    ∀ j : ℕ, j < 12 → Inv (ξ p.val) p (4096 * (j + 1)) (stateAfter T j)
  | 0, _ => by
    have h := stepFull_inv (ξ p.val) p (4096 * 0) (T 0) start
      (fun k => hT 0 p k (by norm_num) (by have := k.isLt; omega)) (start_inv _ p)
    exact h
  | j + 1, hj => by
    have ih := stateAfter_inv ξ T hT p j (by omega)
    have h := stepFull_inv (ξ p.val) p (4096 * (j + 1)) (T (j + 1)) (stateAfter T j)
      (fun k => hT (j + 1) p k (by omega) (by have := k.isLt; omega)) ih
    rw [show 4096 * (j + 1 + 1) = 4096 * (j + 1) + 4096 by ring]
    exact h

/-- THE ROW'S VALUE. With the tiles `T 0, …, T 12` holding, at row `p`, the entries `ξ p c` of the row in the columns
    that exist, the output the kernel stores at row `p` after the last tile is the row's log-sum-exp. -/
theorem out_eq (ξ : ℕ → ℕ → ℝ) (T : ℕ → Vec Ideal S512x4096 .f32) (i : grid0.Coords) (hi : (i 1).val = 12)
    (hT : ∀ (j : ℕ) (p : Fin 512) (k : Fin 4096), j < 13 → 4096 * j + k.val < 50257 →
      T j (ix2 p k) = ((ξ p.val (4096 * j + k.val) : ℝ) : EReal)) (p : Fin 512) :
    k0_pay10 (F := Ideal) (stepLast i (T 12) (stateAfter T 11)).1 (stepLast i (T 12) (stateAfter T 11)).2 (ix2 p 0)
      = ((Cert.Spec.rowLse ξ p.val : ℝ) : EReal) := by
  have h11 : Inv (ξ p.val) p 49152 (stateAfter T 11) := stateAfter_inv ξ T hT p 11 (by norm_num)
  obtain ⟨μ, hm, hL⟩ := stepLast_inv (ξ p.val) p i hi (T 12) (stateAfter T 11)
    (fun k hk => hT 12 p k (by norm_num) (by omega)) h11
  rw [pay10_apply, hm, hL, Ideal.log_coe, if_neg (not_le.mpr (Cert.Spec.sumExp_pos _)), ← EReal.coe_add,
    Cert.Spec.rowLse_shift]

end Cert.KernelIdeal.RowValue

end
-- ==== Proof.KValue.lean ====
/-
  The kernel's result array after the run, at the ideal instance: when every entry of the input matrix is a real
  number, entry `(b, 0)` of the [4096, 1] output ends holding the log-sum-exp of row `b`.
  Row `b` belongs to row block `b / 512`; that block's output is written back once, at the block's last column tile,
  from the output's buffer, which holds `max + log sum` of the running pair; the pair is the 13-tile recurrence over the
  row's entries, whose closed form is the row's log-sum-exp. The write-backs of the eight row blocks cover the array.
-/
import proofs.«113945_j34471407518047_2_alg».proof.Proof.KState
import proofs.«113945_j34471407518047_2_alg».proof.Proof.RowValue
import proofs.«113945_j34471407518047_2_alg».proof.Proof.Spec
import Idealize.ShloMosaic.Lib.Pipeline.Value

set_option maxRecDepth 16384

noncomputable section

namespace Cert.KernelIdeal.KValue

open Cert.KernelIdeal Cert.KernelIdeal.Gen Cert.KernelIdeal.Body Cert.KernelIdeal.RowValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- What the last column tile of a row block leaves in the output's buffer, at row `p` of the block: the log-sum-exp
    of the array's row `512 · b0 + p`. -/
theorem out_apply (c : Dev nD) (ξ : ℕ → ℕ → ℝ)
    (hξ : ∀ (b : Fin 4096) (col : Fin 50257), m ((c : Thread nD τ).loc main_arg0) (ix2 b col) = ((ξ b.val col.val : ℝ) : EReal))
    (t : Fin cfg0.N) (h12 : t.val % 13 = 12) (p : Fin 512) :
    (outsAt0 m c t.val t.isLt).1 (ix2 p 0) = ((Cert.Spec.rowLse ξ (512 * (t.val / 13) + p.val) : ℝ) : EReal) := by
  have hN : cfg0.N = 104 := N_0
  have ht : t.val < 104 := hN ▸ t.isLt
  rw [out_state m c (t.val / 13) t.val t.isLt (by omega)]
  have hT : ∀ (j : ℕ) (p : Fin 512) (k : Fin 4096), j < 13 → 4096 * j + k.val < 50257 →
      tiles m c (t.val / 13) j (ix2 p k) = (((fun p' col => ξ (512 * (t.val / 13) + p') col) p.val (4096 * j + k.val) : ℝ) : EReal) := by
    intro j p k hj hk
    have hn : 13 * (t.val / 13) + j < cfg0.N := by omega
    have e1 : (13 * (t.val / 13) + j) / 13 = t.val / 13 := by omega
    have e2 : (13 * (t.val / 13) + j) % 13 = j := by omega
    rw [tiles_eq m c (t.val / 13) j _ hn rfl,
      tile_apply m c ⟨13 * (t.val / 13) + j, hn⟩ p k (by show 4096 * ((13 * (t.val / 13) + j) % 13) + k.val < 50257; rw [e2]; exact hk)
        (by show 512 * ((13 * (t.val / 13) + j) / 13) + p.val < 4096; rw [e1]; omega),
      hξ]
    show ((ξ (512 * ((13 * (t.val / 13) + j) / 13) + p.val) (4096 * ((13 * (t.val / 13) + j) % 13) + k.val) : ℝ) : EReal) = _
    rw [e1, e2]
  exact out_eq (fun p' col => ξ (512 * (t.val / 13) + p') col) (tiles m c (t.val / 13)) (grid0.coords t) (coord_last t h12) hT p

/-- THE RESULT ARRAY after the run: entry `(b, 0)` is the log-sum-exp of row `b`. -/
theorem lse_apply (c : Dev nD) (ξ : ℕ → ℕ → ℝ)
    (hξ : ∀ (b : Fin 4096) (col : Fin 50257), m ((c : Thread nD τ).loc main_arg0) (ix2 b col) = ((ξ b.val col.val : ℝ) : EReal))
    (i : S4096x1.Idx) :
    ((dats m 0 c).arrAt 1 cfg0.N i : EReal) = ((Cert.Spec.rowLse ξ (i 0).val : ℝ) : EReal) := by
  have hN : cfg0.N = 104 := N_0
  refine (dats m 0 c).arrAt_forall_of_cover 1 (fun (i : S4096x1.Idx) (v : EReal) => v = ((Cert.Spec.rowLse ξ (i 0).val : ℝ) : EReal)) ?hP ?hcover i
  case hP =>
    intro t hf y
    have h12 : t.val % 13 = 12 := (flush0_1 t).mp hf
    obtain ⟨-, -, e2, e3⟩ := index_facts t
    have hy0 : (y 0).val < 512 := (y 0).isLt
    have hy1 : (y 1).val < 1 := (y 1).isLt
    rw [cast_eq]
    show (dats m 0 c).after 1 t (win0_1.xinj (grid0.coords t) y) = ((Cert.Spec.rowLse ξ (win0_1.index t (0 : Fin 2) * 512 + 1 * (y 0).val) : ℝ) : EReal)
    rw [after0_1, show win0_1.xinj (grid0.coords t) y = ix2 (⟨(y 0).val, hy0⟩ : Fin 512) (0 : Fin 1) from
      funext fun a => by
        match a with
        | ⟨0, _⟩ => rfl
        | ⟨1, _⟩ => exact Fin.ext (by show (y 1).val = 0; omega),
      out_apply m c ξ hξ t h12 ⟨(y 0).val, hy0⟩, e2]
    show ((Cert.Spec.rowLse ξ (512 * (t.val / 13) + (y 0).val) : ℝ) : EReal) = ((Cert.Spec.rowLse ξ (t.val / 13 * 512 + 1 * (y 0).val) : ℝ) : EReal)
    rw [show 512 * (t.val / 13) + (y 0).val = t.val / 13 * 512 + 1 * (y 0).val by omega]
  case hcover =>
    intro i
    have hi0 : (i 0).val < 4096 := (i 0).isLt
    have hi1 : (i 1).val < 1 := (i 1).isLt
    have hlt : 13 * ((i 0).val / 512) + 12 < cfg0.N := by omega
    refine ⟨⟨13 * ((i 0).val / 512) + 12, hlt⟩, (flush0_1 _).mpr (by show (13 * ((i 0).val / 512) + 12) % 13 = 12; omega), ?_⟩
    obtain ⟨-, -, e2, e3⟩ := index_facts ⟨13 * ((i 0).val / 512) + 12, hlt⟩
    have e2' : win0_1.index ⟨13 * ((i 0).val / 512) + 12, hlt⟩ (0 : Fin 2) = (i 0).val / 512 := by
      rw [e2]; show (13 * ((i 0).val / 512) + 12) / 13 = (i 0).val / 512; omega
    show i ∈ ((View.whole main_v0).slice (win0_1.rect ⟨13 * ((i 0).val / 512) + 12, hlt⟩)).set
    rw [View.set_slice_whole, Rect.mem_set_unit]
    intro a
    match a with
    | ⟨0, _⟩ =>
      show win0_1.index ⟨13 * ((i 0).val / 512) + 12, hlt⟩ (0 : Fin 2) * 512 ≤ (i 0).val ∧ (i 0).val < win0_1.index ⟨13 * ((i 0).val / 512) + 12, hlt⟩ (0 : Fin 2) * 512 + 512
      rw [e2']; omega
    | ⟨1, _⟩ =>
      show win0_1.index ⟨13 * ((i 0).val / 512) + 12, hlt⟩ (1 : Fin 2) * 1 ≤ (i 1).val ∧ (i 1).val < win0_1.index ⟨13 * ((i 0).val / 512) + 12, hlt⟩ (1 : Fin 2) * 1 + 1
      rw [e3]; omega

end Cert.KernelIdeal.KValue

end
-- ==== Proof.Take.lean ====
/-
  The gather stage the two programs share. Both take, for every row `b` of a `4096 × 50257` matrix `x`, the entry in
  the column a 32-bit integer `t b` names: a negative `t b` is first shifted up by `50257` (so `-1` names the last
  column), the row is marked valid when the shifted index lies in `[0, 50256]`, the gather reads the matrix at the
  (clamped) column, and an invalid row is replaced by the fill word `0x7FC00000`. The stages are written with the
  operations in the order the programs apply them; the shape side conditions are decided here once. Last, the
  closing stage: minus the sum of a `4096`-vector, divided by `4096`.
-/
import Idealize.ShloMosaic.PureOps

noncomputable section

namespace Cert.Take

open Idealize.ShloMosaic

abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

/-! ## The shape side conditions -/

theorem h_S_ : 0 < S_.numel := by decide
theorem bcast_S_S4096x1 : S_.BroadcastsInDim S4096x1 (![] : Fin 0 → Fin S4096x1.rank) := by decide
theorem shapeCasts_S4096x1_S4096x1x1 : S4096x1.ShapeCasts S4096x1x1 := by decide
theorem bcast_S_S4096x1x1 : S_.BroadcastsInDim S4096x1x1 (![] : Fin 0 → Fin S4096x1x1.rank) := by decide
theorem bcast_S1_S1x1x1_2 : S1.BroadcastsInDim S1x1x1 (![2] : Fin 1 → Fin S1x1x1.rank) := by decide
theorem bcast_S1x1x1_S4096x1x1_0_1_2 : S1x1x1.BroadcastsInDim S4096x1x1 (![0, 1, 2] : Fin 3 → Fin S4096x1x1.rank) := by decide
theorem reducesTo_S4096x1x1_S4096x1_d2 : S4096x1x1.ReducesTo [2] S4096x1 := by decide
theorem shapeCasts_S4096x1_S4096 : S4096x1.ShapeCasts S4096 := by decide
theorem reducesTo_S4096_S_d0 : S4096.ReducesTo [0] S_ := by decide
theorem gather_wf : GatherDims.WF S4096x50257 S4096x1x1 S4096x1 [] [1] [0] [1] [0] 2 ![1, 1] := by decide

variable {F : FTy → Type} [FloatOps F]

/-! ## The stages -/

/-- The gather's dimension numbers: rows are batched (operand axis 0 with index axis 0), the column axis is collapsed
    and is the one the index names, slices are single entries. -/
def gdims : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_wf

/-- The normalised index, as a `[4096, 1, 1]` array: `t + 50257` where `t < 0`, else `t`. -/
def idx (t1 : IVec S4096x1 32) : IVec S4096x1x1 32 :=
  shapeCast _ (select (cmpi .slt t1 (broadcastInDim S4096x1 ![] bcast_S_S4096x1 (constantI S_ 32 0#32)))
    (addi t1 (broadcastInDim S4096x1 ![] bcast_S_S4096x1 (constantI S_ 32 50257#32))) t1) shapeCasts_S4096x1_S4096x1x1

/-- The in-range mask, `[4096, 1]`: `0 ≤ idx ≤ 50256` (the conjunction over the one index component). -/
def valid (t1 : IVec S4096x1 32) : IVec S4096x1 1 :=
  Host.reduce IntOp.andi
    (andi (cmpi .sge (idx t1) (broadcastInDim S4096x1x1 ![] bcast_S_S4096x1x1 (constantI S_ 32 0#32)))
      (cmpi .sle (idx t1) (broadcastInDim S4096x1x1 ![0, 1, 2] bcast_S1x1x1_S4096x1x1_0_1_2
        (broadcastInDim S1x1x1 ![2] bcast_S1_S1x1x1_2 (constantI S1 32 50256#32)))))
    (constantI S_ 1 1#1) reducesTo_S4096x1x1_S4096x1_d2 h_S_

/-- The matrix gathered at the normalised index: one entry per row. -/
def gathered (x : FVec F S4096x50257 .f32) (t1 : IVec S4096x1 32) : FVec F S4096x1 .f32 :=
  Host.gather gdims x (idx t1)

/-- The gathered entry where the row's index is in range, the fill word elsewhere. -/
def picked (x : FVec F S4096x50257 .f32) (t1 : IVec S4096x1 32) : FVec F S4096x1 .f32 :=
  select (valid t1) (gathered x t1) (broadcastInDim S4096x1 ![] bcast_S_S4096x1 (constant S_ .f32 0x7FC00000#32))

/-- The closing stage: minus the sum of the vector (from zero), divided by `4096`. -/
def finish (v : FVec F S4096 .f32) : FVec F S_ .f32 :=
  Host.divf (Host.negf (Host.reduceAdd v (constant S_ .f32 0x00000000#32) reducesTo_S4096_S_d0 h_S_))
    (constant S_ .f32 0x45800000#32)

end Cert.Take

end
-- ==== Proof.KernelTail.lean ====
/-
  The kernel program's host tail as a composition of named stages. After the kernel has left the row-wise
  log-sum-exp `lse : [4096, 1]` of the matrix `x : [4096, 50257]`, the host reshapes the integer vector `t : [4096]` to
  `[4096, 1]`, runs the gather stage of `Cert.Take` on `x` itself, subtracts `lse` from the picked entries (both as
  `[4096]` vectors), and returns minus the sum of the differences divided by `4096`.
-/
import proofs.«113945_j34471407518047_2_alg».proof.KernelIdeal
import proofs.«113945_j34471407518047_2_alg».proof.Proof.Take

noncomputable section

namespace Cert.KernelIdeal.Tail

open Cert.KernelIdeal Idealize.ShloMosaic

variable {F : FTy → Type} [FloatOps F]
variable [Cert.KernelIdeal.Facts]
open Facts₀ Facts

/-- The integer vector as a `[4096, 1]` array. -/
def tgt1 (t : IVec S4096 32) : IVec S4096x1 32 := shapeCast _ t shapeCasts_S4096_S4096x1

/-- The normalised index `[4096, 1, 1]`. -/
def idx (t : IVec S4096 32) : IVec S4096x1x1 32 := Take.idx (tgt1 t)
/-- The in-range mask `[4096, 1]`. -/
def valid (t : IVec S4096 32) : IVec S4096x1 1 := Take.valid (tgt1 t)
/-- The matrix gathered at the normalised index. -/
def gathered (x : FVec F S4096x50257 .f32) (t : IVec S4096 32) : FVec F S4096x1 .f32 := Take.gathered x (tgt1 t)
/-- The gathered entry where the index is in range, the fill word elsewhere. -/
def picked (x : FVec F S4096x50257 .f32) (t : IVec S4096 32) : FVec F S4096x1 .f32 := Take.picked x (tgt1 t)

/-- The picked entries minus the log-sum-exp, as `[4096]` vectors. -/
def diff (lse : FVec F S4096x1 .f32) (x : FVec F S4096x50257 .f32) (t : IVec S4096 32) : FVec F S4096 .f32 :=
  subf (shapeCast _ (picked x t) shapeCasts_S4096x1_S4096) (shapeCast _ lse shapeCasts_S4096x1_S4096)

/-- The host tail's result: minus the sum of the differences, divided by `4096`. -/
def kernelTail (lse : FVec F S4096x1 .f32) (x : FVec F S4096x50257 .f32) (t : IVec S4096 32) : FVec F S_ .f32 :=
  Take.finish (diff lse x t)

end Cert.KernelIdeal.Tail

end
-- ==== Proof.KernelTailRun.lean ====
/-
  The kernel program's host tail, run from an arbitrary valuation: the three stretches of host operations after the
  kernel region (the integer vector's reshape; the gather's 22 operations; the two reshapes, the difference and the
  closing sum) leave `kernelTail` of what the valuation holds at the kernel's result and at the two arguments in the
  program's result buffer. Each stretch's result is a stage of the buffers it reads.
-/
import proofs.«113945_j34471407518047_2_alg».proof.Proof.KernelTail
import proofs.«113945_j34471407518047_2_alg».proof.Proof.Gen.KernelIdeal.Launch
import Idealize.ShloMosaic.Lib.StableHlo.Run

noncomputable section

namespace Cert.KernelIdeal.Tail

open Cert.KernelIdeal Idealize.ShloMosaic Idealize.ShloMosaic.TcCoe Idealize.SL.Sem Idealize.ShloMosaic.StableHlo

variable {F : FTy → Type} [FloatOps F]
open Facts₀ Facts

/-- A line run after another: the second from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three lines laid end to end. -/
theorem flatten3 {α : Type} (a b c : List α) : List.flatten [a, b, c] = a ++ (b ++ c) := by
  simp only [List.flatten_cons, List.flatten_nil, List.append_nil]

/-- The first stretch leaves the integer vector as a `[4096, 1]` array. -/
theorem segA_v1 (W : Valuation τ sig (Elt F)) :
    after (Gen.hostOps1 (F := F)) W (Proc.devRef .tc main_v1) = tgt1 (W (Proc.devRef .tc main_arg1)) := by
  after_results_simp <;> rfl
/-- The first stretch does not write the matrix argument. -/
theorem segA_arg0 (W : Valuation τ sig (Elt F)) :
    after (Gen.hostOps1 (F := F)) W (Proc.devRef .tc main_arg0) = W (Proc.devRef .tc main_arg0) := by
  after_results_simp <;> rfl
/-- The first stretch does not write the kernel's result. -/
theorem segA_v0 (W : Valuation τ sig (Elt F)) :
    after (Gen.hostOps1 (F := F)) W (Proc.devRef .tc main_v0) = W (Proc.devRef .tc main_v0) := by
  after_results_simp <;> rfl

/-- The second stretch leaves the picked entries of the matrix argument at the `[4096, 1]` integer array. -/
theorem segB_v2 (W : Valuation τ sig (Elt F)) :
    after (Gen.hostOps1_1 (F := F)) W (Proc.devRef .tc main_v2)
      = Take.picked (W (Proc.devRef .tc main_arg0)) (W (Proc.devRef .tc main_v1)) := by
  after_results_simp <;> rfl
/-- The second stretch does not write the kernel's result. -/
theorem segB_v0 (W : Valuation τ sig (Elt F)) :
    after (Gen.hostOps1_1 (F := F)) W (Proc.devRef .tc main_v0) = W (Proc.devRef .tc main_v0) := by
  after_results_simp <;> rfl

/-- The third stretch leaves minus the sum of the picked entries less the kernel's result, divided by `4096`. -/
theorem segC_v8 (W : Valuation τ sig (Elt F)) :
    after (Gen.hostOps1_2 (F := F)) W (Proc.devRef .tc main_v8)
      = Take.finish (subf (shapeCast _ (W (Proc.devRef .tc main_v2)) shapeCasts_S4096x1_S4096)
          (shapeCast _ (W (Proc.devRef .tc main_v0)) shapeCasts_S4096x1_S4096)) := by
  after_results_simp <;> rfl

/-- The host tail from any valuation: the result buffer ends at `kernelTail` of the valuation's kernel result, matrix
    argument and integer argument. -/
theorem tail_after (W : Valuation τ sig (Elt F)) :
    after (List.flatten [Gen.hostOps1 (F := F), Gen.hostOps1_1, Gen.hostOps1_2]) W (Proc.devRef .tc main_v8)
      = kernelTail (W (Proc.devRef .tc main_v0)) (W (Proc.devRef .tc main_arg0)) (W (Proc.devRef .tc main_arg1)) := by
  rw [flatten3, after_append, after_append, segC_v8, segB_v2, segB_v0, segA_v1, segA_arg0, segA_v0]
  rfl

end Cert.KernelIdeal.Tail

end
-- ==== Proof.KRun.lean ====
/-
  The idealized kernel program's run with its result named: every weakly fair execution ends with the result buffer
  at the host tail's function of the kernel's output array (as the proof data computes it after the last write-back),
  the matrix argument and the integer argument, and with both arguments unchanged. The host lines after the region
  run from the arrays the region leaves: the kernel's output at its final contents, the matrix argument (an input
  window's array) at its entry contents, every other buffer as it was.
-/
import proofs.«113945_j34471407518047_2_alg».proof.Proof.IdealBody
import proofs.«113945_j34471407518047_2_alg».proof.Proof.KernelTailRun

set_option maxRecDepth 16384

noncomputable section

namespace Cert.KernelIdeal.KRun

open Cert.KernelIdeal Cert.KernelIdeal.Gen Cert.KernelIdeal.Body
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The host tail's result from the arrays the region leaves. -/
theorem result_eq (c : Dev nD) :
    Pipeline.afterTail₀ cfgs (dats m) 0 (V0 m) [hostOps1, hostOps1_1, hostOps1_2] c main_v8
      = Tail.kernelTail ((dats m 0 c).arrAt 1 cfg0.N) (m ((c : Thread nD τ).loc main_arg0)) (m ((c : Thread nD τ).loc main_arg1)) := by
  unfold Pipeline.afterTail₀
  have e0 : Pipeline.withArrays spec0 c (V0 m c) (fun w => (dats m 0 c).arrAt w cfg0.N) (Proc.devRef .tc main_v0) = (dats m 0 c).arrAt 1 cfg0.N :=
    Pipeline.withArrays_arr spec0 launch0.win.arr_inj c (V0 m c) _ (1 : Fin 2)
  have e1 : Pipeline.withArrays spec0 c (V0 m c) (fun w => (dats m 0 c).arrAt w cfg0.N) (Proc.devRef .tc main_arg0) = m ((c : Thread nD τ).loc main_arg0) :=
    (Pipeline.withArrays_arr spec0 launch0.win.arr_inj c (V0 m c) _ (0 : Fin 2)).trans
      (((dats m 0 c).arrAt_in 0 rfl _).trans ((A_eq m c 0).trans (V_main_arg0 m c)))
  have e2 : Pipeline.withArrays spec0 c (V0 m c) (fun w => (dats m 0 c).arrAt w cfg0.N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  rw [Tail.tail_after, e0, e1, e2]

/-- The run, with the result and the two arguments read off the frame run's post. -/
theorem kernel_run : θ_run defs (onTc (τ := τ) (main (F := F))) ⟨m, fun _ => 0, ρ⟩ (fun r => ∀ c : Dev nD,
      r.2.mem ((c.tc : Thread nD τ).loc main_v8) = Tail.kernelTail ((dats m 0 c).arrAt 1 cfg0.N) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KRun

end
-- ==== Proof.RefStages.lean ====
/-
  The reference program's value as a composition of named stages. The reference computes, for a matrix
  `x : [4096, 50257]` and a vector of integers `t : [4096]`: the row maximum `rowMax x`, the shifted matrix
  `x - rowMax`, the row sums of its exponentials, the log-softmax `logp = (x - rowMax) - log (sum)`, then the gather
  stage of `Cert.Take` on `logp` at `t` (as a `[4096, 1]` array), and minus the sum of the picked entries divided by
  `4096`. Each stage is written with the operations the program applies, in its order.
-/
import proofs.«113945_j34471407518047_2_alg».proof.ReferenceIdeal
import proofs.«113945_j34471407518047_2_alg».proof.Proof.Take

noncomputable section

namespace Cert.ReferenceIdeal.RefRun

open Cert.ReferenceIdeal Idealize.ShloMosaic

variable {F : FTy → Type} [FloatOps F]
variable [Cert.ReferenceIdeal.Facts]
open Facts₀ Facts

/-! ## The stages -/

/-- The row maximum, `[4096]`: the fold of the maximum along each row from the word `0xFF800000`, then the maximum
    with that word once more. -/
def rowMax (x : FVec F S4096x50257 .f32) : FVec F S4096 .f32 :=
  maximumf (broadcastInDim S4096 ![] bcast_S_S4096 (constant S_ .f32 0xFF800000#32))
    (Host.reduce FloatOps.maximumf x (constant S_ .f32 0xFF800000#32) reducesTo_S4096x50257_S4096_d1 h_S_)

/-- The matrix minus its row maximum. -/
def shifted (x : FVec F S4096x50257 .f32) : FVec F S4096x50257 .f32 :=
  subf x (broadcastInDim S4096x50257 ![0, 1] bcast_S4096x1_S4096x50257_0_1
    (broadcastInDim S4096x1 ![0] bcast_S4096_S4096x1_0 (rowMax x)))

/-- The row sums of the exponentials of the shifted matrix, from zero. -/
def sumExp (x : FVec F S4096x50257 .f32) : FVec F S4096 .f32 :=
  Host.reduceAdd (Host.exp (shifted x)) (constant S_ .f32 0x00000000#32) reducesTo_S4096x50257_S4096_d1 h_S_

/-- The log-softmax: the shifted matrix minus the logarithm of its row's sum of exponentials. -/
def logp (x : FVec F S4096x50257 .f32) : FVec F S4096x50257 .f32 :=
  subf (shifted x) (broadcastInDim S4096x50257 ![0, 1] bcast_S4096x1_S4096x50257_0_1
    (Host.log (broadcastInDim S4096x1 ![0] bcast_S4096_S4096x1_0 (sumExp x))))

/-- The integer vector as a `[4096, 1]` array. -/
def tgt1 (t : IVec S4096 32) : IVec S4096x1 32 := broadcastInDim S4096x1 ![0] bcast_S4096_S4096x1_0 t

/-- The normalised index `[4096, 1, 1]`. -/
def idx (t : IVec S4096 32) : IVec S4096x1x1 32 := Take.idx (tgt1 t)
/-- The in-range mask `[4096, 1]`. -/
def valid (t : IVec S4096 32) : IVec S4096x1 1 := Take.valid (tgt1 t)
/-- The log-softmax gathered at the normalised index. -/
def gathered (x : FVec F S4096x50257 .f32) (t : IVec S4096 32) : FVec F S4096x1 .f32 := Take.gathered (logp x) (tgt1 t)
/-- The gathered entry where the index is in range, the fill word elsewhere. -/
def picked (x : FVec F S4096x50257 .f32) (t : IVec S4096 32) : FVec F S4096x1 .f32 := Take.picked (logp x) (tgt1 t)

/-- The reference's result: minus the sum of the picked entries, divided by `4096`. -/
def refOut (x : FVec F S4096x50257 .f32) (t : IVec S4096 32) : FVec F S_ .f32 :=
  Take.finish (shapeCast _ (picked x t) shapeCasts_S4096x1_S4096)

end Cert.ReferenceIdeal.RefRun

end
-- ==== Proof.RefRun.lean ====
/-
  The reference program's run, read back through the named stages of `RefStages`. `run`: every weakly fair execution
  of @main terminates with its result buffer at `refOut` of the two arguments' launch contents, the arguments
  unchanged. The operation list is the program's, in order; it is read in three stretches (the log-softmax, the
  gather, the closing sum), each stretch's result a stage of the arguments it reads.
-/
import proofs.«113945_j34471407518047_2_alg».proof.Proof.RefStages
import Idealize.ShloMosaic.Lib.StableHlo.Run
import Idealize.ShloMosaic.Lib.Pipeline.Regions

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Cert.ReferenceIdeal.Facts]
open Facts₀ Facts

/-! ## The run -/

/-- The log-softmax's 15 operations, in order. -/
abbrev ops1 : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf ]

/-- The integer vector's broadcast and the gather's 22 operations, in order. -/
abbrev ops2 : List (HloOp τ sig (Elt F)) :=
  [ unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- The closing 6 operations, in order. -/
abbrev ops3 : List (HloOp τ sig (Elt F)) :=
  [ reshape main_v2 main_v3 rfl shapeCasts_S4096x1_S4096,
    nullary main_cst (constant S_ .f32 0x00000000#32),
    binary main_v3 main_cst main_v4 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    nullary main_cst_0 (constant S_ .f32 0x45800000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

/-- @main's 44 operations, in order. -/
abbrev ops : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf,
    unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select,
    reshape main_v2 main_v3 rfl shapeCasts_S4096x1_S4096,
    nullary main_cst (constant S_ .f32 0x00000000#32),
    binary main_v3 main_cst main_v4 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    nullary main_cst_0 (constant S_ .f32 0x45800000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = ops1 ++ (ops2 ++ ops3) := rfl

/-- A line run after another: the second from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The log-softmax's operations in five short runs: the row maximum's fold; its maximum with the floor word; the shift;
    the sum of exponentials; the logarithm and the final difference. -/
abbrev c1 : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_) ]
abbrev c2 : List (HloOp τ sig (Elt F)) :=
  [ TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf ]
abbrev c3 : List (HloOp τ sig (Elt F)) :=
  [ TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf ]
abbrev c4 : List (HloOp τ sig (Elt F)) :=
  [ TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_) ]
abbrev c5 : List (HloOp τ sig (Elt F)) :=
  [ TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf ]

theorem ops1_split : (ops1 : List (HloOp τ sig (Elt F))) = c1 ++ (c2 ++ (c3 ++ (c4 ++ c5))) := rfl

theorem c1_v0 (V : Valuation τ sig (Elt F)) :
    after c1 V (Proc.devRef .tc main_call0_v0)
      = Host.reduce FloatOps.maximumf (V (Proc.devRef .tc main_arg0)) (constant S_ .f32 0xFF800000#32)
          reducesTo_S4096x50257_S4096_d1 h_S_ := by
  after_results_simp; chain_rfl
theorem c1_arg0 (V : Valuation τ sig (Elt F)) :
    after c1 V (Proc.devRef .tc main_arg0) = V (Proc.devRef .tc main_arg0) := by
  after_results_simp <;> rfl
theorem c2_v2 (V : Valuation τ sig (Elt F)) :
    after c2 V (Proc.devRef .tc main_call0_v2)
      = maximumf (broadcastInDim S4096 ![] bcast_S_S4096 (constant S_ .f32 0xFF800000#32))
          (V (Proc.devRef .tc main_call0_v0)) := by
  after_results_simp; chain_rfl
theorem c2_arg0 (V : Valuation τ sig (Elt F)) :
    after c2 V (Proc.devRef .tc main_arg0) = V (Proc.devRef .tc main_arg0) := by
  after_results_simp <;> rfl
theorem c3_v5 (V : Valuation τ sig (Elt F)) :
    after c3 V (Proc.devRef .tc main_call0_v5)
      = subf (V (Proc.devRef .tc main_arg0)) (broadcastInDim S4096x50257 ![0, 1] bcast_S4096x1_S4096x50257_0_1
          (broadcastInDim S4096x1 ![0] bcast_S4096_S4096x1_0 (V (Proc.devRef .tc main_call0_v2)))) := by
  after_results_simp; chain_rfl
theorem c4_v7 (V : Valuation τ sig (Elt F)) :
    after c4 V (Proc.devRef .tc main_call0_v7)
      = Host.reduceAdd (Host.exp (V (Proc.devRef .tc main_call0_v5))) (constant S_ .f32 0x00000000#32)
          reducesTo_S4096x50257_S4096_d1 h_S_ := by
  after_results_simp; chain_rfl
theorem c4_v5 (V : Valuation τ sig (Elt F)) :
    after c4 V (Proc.devRef .tc main_call0_v5) = V (Proc.devRef .tc main_call0_v5) := by
  after_results_simp <;> rfl
theorem c5_out (V : Valuation τ sig (Elt F)) :
    after c5 V (Proc.devRef .tc main_v0)
      = subf (V (Proc.devRef .tc main_call0_v5)) (broadcastInDim S4096x50257 ![0, 1] bcast_S4096x1_S4096x50257_0_1
          (Host.log (broadcastInDim S4096x1 ![0] bcast_S4096_S4096x1_0 (V (Proc.devRef .tc main_call0_v7))))) := by
  after_results_simp; chain_rfl

/-- The first stretch leaves the log-softmax of the matrix argument in its result buffer. -/
theorem seg1_v0 (V : Valuation τ sig (Elt F)) :
    after ops1 V (Proc.devRef .tc main_v0) = logp (V (Proc.devRef .tc main_arg0)) := by
  rw [ops1_split, after_append, after_append, after_append, after_append, c5_out, c4_v7, c4_v5, c3_v5, c2_v2, c2_arg0,
    c1_v0, c1_arg0]
  rfl

/-- The first stretch does not write the integer argument. -/
theorem seg1_arg1 (V : Valuation τ sig (Elt F)) :
    after ops1 V (Proc.devRef .tc main_arg1) = V (Proc.devRef .tc main_arg1) := by
  after_results_simp <;> rfl

/-- The second stretch leaves the picked entries of the matrix in `main_v0` at the integer argument. -/
theorem seg2_v2 (V : Valuation τ sig (Elt F)) :
    after ops2 V (Proc.devRef .tc main_v2)
      = Take.picked (V (Proc.devRef .tc main_v0)) (tgt1 (V (Proc.devRef .tc main_arg1))) := by
  after_results_simp <;> rfl

/-- The third stretch leaves minus the sum of `main_v2`'s entries divided by `4096`. -/
theorem seg3_v6 (V : Valuation τ sig (Elt F)) :
    after ops3 V (Proc.devRef .tc main_v6)
      = Take.finish (shapeCast _ (V (Proc.devRef .tc main_v2)) shapeCasts_S4096x1_S4096) := by
  after_results_simp <;> rfl

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., unary_bufs_sub .., nullary_bufs_sub .., binary_bufs_sub ..⟩

set_option maxRecDepth 65536 in
set_option maxHeartbeats 4000000 in
/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (by
        rw [ops_split, after_append, after_append, seg3_v6, seg2_v2, seg1_v0, seg1_arg1]; rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.Bridge.lean ====
/-
  The bridge between the kernel program's host tail and the reference, at the ideal instance (floats are extended
  reals, every operation exact). For a matrix `x` of real entries `ξ b c` and the kernel's result equal to the row-wise
  log-sum-exp `rowLse ξ b`, the two programs' results agree. Both close with minus the sum of a `4096`-vector divided by
  `4096`, so it is enough that the vectors agree row by row. In row `b` both are a select on the SAME validity bit of
  an entry read at the SAME position `(b, col b)` (the gather's position depends on the index array only): the kernel
  reads `x` there and subtracts `rowLse ξ b`, the reference reads the log-softmax
  `(x - a) - log (∑ c, exp (ξ b c - a))` with `a` the row maximum, a real number; the two are equal by the shift
  invariance of log-sum-exp (`Cert.Spec.rowLse_shift`, for any real shift). In an invalid row both are bottom: the fill
  word reads as bottom, and bottom minus anything is bottom.
-/
import proofs.«113945_j34471407518047_2_alg».proof.Proof.KernelTail
import proofs.«113945_j34471407518047_2_alg».proof.Proof.RefStages
import proofs.«113945_j34471407518047_2_alg».proof.Proof.Spec
import proofs.«113945_j34471407518047_2_alg».proof.Proof.Gen.KernelIdeal
import proofs.«113945_j34471407518047_2_alg».proof.Proof.Gen.ReferenceIdeal
import Idealize.ShloMosaic.Lib.ValueIdx
import Idealize.ShloMosaic.Lib.Pipeline.Value
import Idealize.ShloMosaic.Lib.IdealHost
import Idealize.ShloMosaic.PureOps.Ideal.Laws

noncomputable section

open scoped BigOperators

/-! ## The gather stage read at a row -/

namespace Cert.Take

open Idealize.ShloMosaic Idealize.ShloMosaic.ValueIdx

variable {F : FTy → Type} [FloatOps F]

/-- The column the gather reads in row `b`: it depends on the index array only. -/
def col (t1 : IVec S4096x1 32) (b : Fin 4096) : Fin 50257 := gdims.operandIdx (ix2 b (0 : Fin 1)) (idx t1) 1

/-- The gather reads row `b` of the operand for row `b` of the result: rows are batched. -/
theorem operandIdx_row (t1 : IVec S4096x1 32) (b : Fin 4096) :
    gdims.operandIdx (ix2 b (0 : Fin 1)) (idx t1) 0 = b := by
  apply Fin.ext
  show gdims.start (ix2 b (0 : Fin 1)) (idx t1) 0 + gdims.batchCoord (ix2 b (0 : Fin 1)) 0 + gdims.offCoord (ix2 b (0 : Fin 1)) 0 = b.val
  rw [GatherDims.start_batching _ _ _ _ (by decide), GatherDims.offCoord_eq_zero _ _ _ (by decide)]
  rw [Nat.zero_add, Nat.add_zero]
  rfl

/-- The position the gather reads for row `b`. -/
theorem operandIdx_eq (t1 : IVec S4096x1 32) (b : Fin 4096) :
    gdims.operandIdx (ix2 b (0 : Fin 1)) (idx t1) = ix2 b (col t1 b) := by
  have h := eq_ix2 (n0 := 4096) (n1 := 50257) (gdims.operandIdx (ix2 b (0 : Fin 1)) (idx t1))
  rw [operandIdx_row] at h
  exact h

/-- The picked entry of row `b`: the operand at `(b, col b)` where the row is valid, the fill word elsewhere. -/
theorem picked_row (x : FVec F S4096x50257 .f32) (t1 : IVec S4096x1 32) (b : Fin 4096) :
    picked x t1 (ix2 b (0 : Fin 1))
      = Scalar.select (valid t1 (ix2 b (0 : Fin 1))) (x (ix2 b (col t1 b))) (FloatOps.ofBits .f32 0x7FC00000#32) := by
  show Scalar.select (valid t1 (ix2 b (0 : Fin 1))) (x (gdims.operandIdx (ix2 b (0 : Fin 1)) (idx t1))) _ = _
  rw [operandIdx_eq]
  rfl

end Cert.Take

namespace Cert.Bridge

open Idealize.ShloMosaic Idealize.ShloMosaic.ValueIdx Cert.Take

/-! ## Words and operations on reals -/

theorem ofBits_nan : Ideal.ofBits .f32 0x7FC00000#32 = ⊥ := by simp [Ideal.ofBits, Ideal.ieee]
theorem ofBits_ninf : Ideal.ofBits .f32 0xFF800000#32 = ⊥ := by simp [Ideal.ofBits, Ideal.ieee]

theorem exp_coe (r : ℝ) : Ideal.exp (r : EReal) = ((Real.exp r : ℝ) : EReal) := rfl
theorem log_coe {r : ℝ} (hr : 0 < r) : Ideal.log (r : EReal) = ((Real.log r : ℝ) : EReal) := by
  show (if r ≤ 0 then (⊥ : EReal) else ((Real.log r : ℝ) : EReal)) = _
  rw [if_neg (not_le.2 hr)]

theorem coe_max (x y : ℝ) : ((max x y : ℝ) : EReal) = max (x : EReal) (y : EReal) :=
  EReal.coe_strictMono.monotone.map_max

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The fold of the maximum from bottom over a finite set of reals: bottom on the empty set, a real otherwise. -/
theorem fold_max_coe {ι : Type} [DecidableEq ι] (s : Finset ι) (f : ι → ℝ) :
    (s.fold (FloatOps.maximumf (F := Ideal) (φ := .f32)) (⊥ : EReal) (fun k => ((f k : ℝ) : EReal)) = ⊥ ∧ s = ∅)
      ∨ ∃ a : ℝ, s.fold (FloatOps.maximumf (F := Ideal) (φ := .f32)) (⊥ : EReal) (fun k => ((f k : ℝ) : EReal)) = (a : EReal) := by
  induction s using Finset.induction_on with
  | empty => left; exact ⟨Finset.fold_empty, rfl⟩
  | insert a s ha ih =>
    right
    rw [Finset.fold_insert ha]
    rcases ih with ⟨h0, _⟩ | ⟨r, hr⟩
    · exact ⟨f a, by rw [h0]; exact max_bot_right _⟩
    · exact ⟨max (f a) r, by rw [hr, coe_max]; rfl⟩

/-! ## Layout operations read at a row -/

theorem cast_col_apply {α : Type} (y : S4096x1.Idx → α) (h : S4096x1.ShapeCasts S4096) (b : Fin 4096) :
    shapeCast S4096 y h (ix1 b) = y (ix2 b (0 : Fin 1)) :=
  shapeCast_apply y h (ix1 b) (ix2 b (0 : Fin 1)) (by
    rewrite [Shape.rowMajor_val_two, Shape.rowMajor_val_one]; show b.val * 1 + 0 = b.val; omega)

theorem cast_vec_apply {α : Type} (t : S4096.Idx → α) (h : S4096.ShapeCasts S4096x1) (b : Fin 4096) (u : Fin 1) :
    shapeCast S4096x1 t h (ix2 b u) = t (ix1 b) :=
  shapeCast_apply t h (ix2 b u) (ix1 b) (by
    rewrite [Shape.rowMajor_val_one, Shape.rowMajor_val_two]; have := u.isLt; show b.val = b.val * 1 + u.val; omega)

theorem bcast_vec_apply {α : Type} (t : S4096.Idx → α)
    (h : S4096.BroadcastsInDim S4096x1 (![0] : Fin S4096.rank → Fin S4096x1.rank)) (b : Fin 4096) (u : Fin 1) :
    broadcastInDim S4096x1 ![0] h t (ix2 b u) = t (ix1 b) :=
  broadcastInDim_apply _ h t (ix2 b u) (ix1 b) (fun a => match a with
    | ⟨0, _⟩ => by show b.val = if (4096 : Nat) = 1 then 0 else b.val; rw [if_neg (by decide)])

theorem bcast_mat_apply {α : Type} (v : S4096x1.Idx → α)
    (h : S4096x1.BroadcastsInDim S4096x50257 (![0, 1] : Fin S4096x1.rank → Fin S4096x50257.rank)) (b : Fin 4096) (c : Fin 50257) :
    broadcastInDim S4096x50257 ![0, 1] h v (ix2 b c) = v (ix2 b (0 : Fin 1)) :=
  broadcastInDim_apply _ h v (ix2 b c) (ix2 b (0 : Fin 1)) (fun a => match a with
    | ⟨0, _⟩ => by show b.val = if (4096 : Nat) = 1 then 0 else b.val; rw [if_neg (by decide)]
    | ⟨1, _⟩ => by show 0 = if (1 : Nat) = 1 then 0 else c.val; rw [if_pos rfl])

end Cert.Bridge

namespace Cert.Bridge

open Idealize.ShloMosaic Idealize.ShloMosaic.ValueIdx Cert.Take

/-! ## The two programs' index arrays agree -/

/-- The kernel reshapes the integer vector to `[4096, 1]`, the reference broadcasts it: the same array. -/
theorem tgt1_eq (tgt : IVec S4096 32) :
    Cert.KernelIdeal.Tail.tgt1 tgt = Cert.ReferenceIdeal.RefRun.tgt1 tgt := by
  funext j
  obtain ⟨b, u, rfl⟩ : ∃ (b : Fin 4096) (u : Fin 1), j = ix2 b u := ⟨j 0, j 1, eq_ix2 j⟩
  unfold Cert.KernelIdeal.Tail.tgt1 Cert.ReferenceIdeal.RefRun.tgt1
  rw [cast_vec_apply, bcast_vec_apply]

/-! ## The bridge -/

theorem tail_eq_ref_of (pred : FVec Ideal S4096x50257 .f32) (tgt : IVec S4096 32) (ξ : ℕ → ℕ → ℝ)
    (hξ : ∀ (b : Fin 4096) (c : Fin 50257), pred (ix2 b c) = ((ξ b.val c.val : ℝ) : EReal))
    (lse : FVec Ideal S4096x1 .f32)
    (hl : ∀ b : Fin 4096, lse (ix2 b (0 : Fin 1)) = ((Cert.Spec.rowLse ξ b.val : ℝ) : EReal))
    (hlogp : ∀ (b : Fin 4096) (c : Fin 50257), Cert.ReferenceIdeal.RefRun.logp (F := Ideal) pred (ix2 b c)
        = ((ξ b.val c.val - Cert.Spec.rowLse ξ b.val : ℝ) : EReal)) :
    Cert.KernelIdeal.Tail.kernelTail (F := Ideal) lse pred tgt
      = Cert.ReferenceIdeal.RefRun.refOut (F := Ideal) pred tgt := by
  unfold Cert.KernelIdeal.Tail.kernelTail Cert.ReferenceIdeal.RefRun.refOut
  refine congrArg (Take.finish (F := Ideal)) (funext fun j => ?_)
  obtain ⟨b, rfl⟩ : ∃ b : Fin 4096, j = ix1 b := ⟨j 0, eq_ix1 j⟩
  unfold Cert.KernelIdeal.Tail.diff Cert.KernelIdeal.Tail.picked Cert.ReferenceIdeal.RefRun.picked
  rw [subf_apply, cast_col_apply, cast_col_apply, cast_col_apply, tgt1_eq, picked_row, picked_row, hl b, hξ, hlogp]
  unfold Scalar.select
  by_cases hv : Take.valid (Cert.ReferenceIdeal.RefRun.tgt1 tgt) (ix2 b (0 : Fin 1)) = 1
  · rw [if_pos hv, if_pos hv]
    exact (EReal.coe_sub _ _).symm
  · rw [if_neg hv, if_neg hv, Ideal.ofBits_def, ofBits_nan]
    exact EReal.bot_sub _

end Cert.Bridge

end
-- ==== Proof.RefLogpA.lean ====
/-
  The reference's log-softmax read at an entry, at the ideal instance, for a matrix of real entries `ξ b c`:
  `logp x (b, c) = ξ b c - rowLse ξ b`. The row maximum is the fold of the maximum from bottom over the row's 50257
  real entries, then the maximum with bottom again: a real number `a` (the row is not empty). The shifted entry is
  `ξ b c - a`, the row's sum of exponentials is the real `S = ∑ c, exp (ξ b c - a)`, positive, so its logarithm is
  the real logarithm, and `(ξ b c - a) - log S = ξ b c - rowLse ξ b` by the shift invariance of log-sum-exp.
-/
import proofs.«113945_j34471407518047_2_alg».proof.Proof.Bridge

noncomputable section

open scoped BigOperators

namespace Cert.Bridge

open Idealize.ShloMosaic Idealize.ShloMosaic.ValueIdx Cert.Take Cert.ReferenceIdeal.RefRun

/-- Rows reduce along the column axis. -/
theorem hRed : Shape.Reduces S4096x50257 [1] S4096 := by decide

/-- A coordinate on the column axis as a column number. -/
abbrev kc (k : Fin (S4096x50257.size 1)) : Fin 50257 := ⟨k.val, k.isLt⟩

/-- Row `b` with column `k` inserted is the entry `(b, k)`. -/
theorem lift_eq (b : Fin 4096) (k : Fin (S4096x50257.size 1)) : hRed.lift (ix1 b) k = ix2 b (kc k) := by
  funext a; exact Fin.ext (by match a with | ⟨0, _⟩ => rfl | ⟨1, _⟩ => rfl)

theorem hexp_apply {s : Shape} (x : FVec Ideal s .f32) (i : s.Idx) : Host.exp x i = Ideal.exp (x i) := rfl
theorem hlog_apply {s : Shape} (x : FVec Ideal s .f32) (i : s.Idx) : Host.log x i = Ideal.log (x i) := rfl

variable (pred : FVec Ideal S4096x50257 .f32) (ξ : ℕ → ℕ → ℝ)
  (hξ : ∀ (b : Fin 4096) (c : Fin 50257), pred (ix2 b c) = ((ξ b.val c.val : ℝ) : EReal))

include hξ in
/-- The row maximum is a real number. -/
theorem rowMax_real (b : Fin 4096) : ∃ a : ℝ, rowMax (F := Ideal) pred (ix1 b) = (a : EReal) := by
  have e : rowMax (F := Ideal) pred (ix1 b)
      = max (Ideal.ofBits .f32 0xFF800000#32)
          ((Finset.univ : Finset (Fin (S4096x50257.size 1))).fold (FloatOps.maximumf (F := Ideal) (φ := .f32))
            (Ideal.ofBits .f32 0xFF800000#32) (pred ∘ hRed.lift (ix1 b))) := by
    unfold rowMax
    rw [maximumf_apply, broadcastInDim_scalar_apply, constant_apply,
      Host.reduce_eq_fold_single (FloatOps.maximumf (F := Ideal) (φ := .f32)) pred _ _ hRed _ (ix1 b), constant_apply]
  have hf : (pred ∘ hRed.lift (ix1 b)) = fun k : Fin (S4096x50257.size 1) => ((ξ b.val k.val : ℝ) : EReal) := by
    funext k
    show pred (hRed.lift (ix1 b) k) = _
    rw [lift_eq]
    exact hξ b (kc k)
  rw [e, ofBits_ninf, hf]
  haveI : Nonempty (Fin (S4096x50257.size 1)) := ⟨⟨0, by decide⟩⟩
  rcases fold_max_coe (Finset.univ : Finset (Fin (S4096x50257.size 1))) (fun k => ξ b.val k.val) with ⟨_, h0⟩ | ⟨r, hr⟩
  · exact absurd h0 Finset.univ_nonempty.ne_empty
  · exact ⟨r, by rw [hr]; exact max_bot_left _⟩

/-- The shifted entry: the entry minus its row's maximum. -/
theorem shifted_apply (b : Fin 4096) (c : Fin 50257) :
    shifted (F := Ideal) pred (ix2 b c) = pred (ix2 b c) - rowMax (F := Ideal) pred (ix1 b) := by
  unfold shifted
  rw [subf_apply, bcast_mat_apply, bcast_vec_apply]

include hξ in
/-- The row's sum of exponentials, as a real sum. -/
theorem sumExp_eq (b : Fin 4096) (a : ℝ) (ha : rowMax (F := Ideal) pred (ix1 b) = (a : EReal)) :
    sumExp (F := Ideal) pred (ix1 b)
      = ((∑ c ∈ Finset.range Cert.Spec.C, Real.exp (ξ b.val c - a) : ℝ) : EReal) := by
  have hterm : ∀ k : Fin (S4096x50257.size 1),
      Host.exp (shifted (F := Ideal) pred) (hRed.lift (ix1 b) k) = ((Real.exp (ξ b.val k.val - a) : ℝ) : EReal) := by
    intro k
    rw [lift_eq, hexp_apply, shifted_apply, ha, hξ b (kc k), ← EReal.coe_sub, exp_coe]
  unfold sumExp
  rw [hostReduceAdd_apply, Ideal.hostReduceAdd_single _ hRed, constant_apply, Ideal.ofBits_zero_f32, zero_add,
    Finset.sum_congr rfl (fun k _ => hterm k), ← coe_sum]
  exact congrArg Real.toEReal (Fin.sum_univ_eq_sum_range (fun c => Real.exp (ξ b.val c - a)) Cert.Spec.C)

include hξ in
/-- The log-softmax at an entry. -/
theorem logp_apply (b : Fin 4096) (c : Fin 50257) :
    logp (F := Ideal) pred (ix2 b c) = ((ξ b.val c.val - Cert.Spec.rowLse ξ b.val : ℝ) : EReal) := by
  obtain ⟨a, ha⟩ := rowMax_real pred ξ hξ b
  have hS : 0 < ∑ c ∈ Finset.range Cert.Spec.C, Real.exp (ξ b.val c - a) :=
    Cert.Spec.sumExp_pos (fun c => ξ b.val c - a)
  have hsh := Cert.Spec.rowLse_shift ξ b.val a
  unfold logp
  rw [subf_apply, bcast_mat_apply, hlog_apply, bcast_vec_apply, shifted_apply, ha, hξ b c,
    sumExp_eq pred ξ hξ b a ha, log_coe hS, ← EReal.coe_sub, ← EReal.coe_sub]
  refine congrArg Real.toEReal ?_
  linarith

include hξ in
/-- The bridge: on a matrix of real entries, with the kernel's result the row-wise log-sum-exp, the kernel program's
    host tail and the reference compute the same value. -/
theorem tail_eq_ref (tgt : IVec S4096 32) (lse : FVec Ideal S4096x1 .f32)
    (hl : ∀ b : Fin 4096, lse (ix2 b (0 : Fin 1)) = ((Cert.Spec.rowLse ξ b.val : ℝ) : EReal)) :
    Cert.KernelIdeal.Tail.kernelTail (F := Ideal) lse pred tgt
      = Cert.ReferenceIdeal.RefRun.refOut (F := Ideal) pred tgt :=
  tail_eq_ref_of pred tgt ξ hξ lse hl (logp_apply pred ξ hξ)

end Cert.Bridge

end
-- ==== Proof.Finite.lean ====
/-
  Finiteness read off the precondition. The precondition is the conjunction over all entries of `|x| < +∞` (a
  reduce by `and` of the comparison's bits, from 1, over both axes). If it is 1, every bit is 1, so at every index
  `max x (-x) < ⊤` on the extended reals; that excludes `⊤` and `⊥`, so the entry is a real number.
-/
import proofs.«113945_j34471407518047_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

variable [Cert.Pre_finite_inputs.Facts]

/-- The scalar shape has one index. -/
instance : Subsingleton S_.Idx := ⟨fun a b => funext fun d => d.elim0⟩

/-- The infinity pattern denotes `⊤`. -/
theorem ofBits_inf : Ideal.ofBits .f32 0x7F800000#32 = (⊤ : EReal) := by simp [Ideal.ofBits, Ideal.ieee]

/-- Under the precondition every entry of the float input is a real number. -/
theorem finite_of_pre (x : FVec Ideal S4096x50257 .f32) (t : IVec S4096 32)
    (h : Cert.Pre_finite_inputs.fn (F := Ideal) x t = fun _ => 1#1) (i : S4096x50257.Idx) : ∃ r : ℝ, x i = (r : EReal) := by
  have h0 := congrFun h ValueIdx.ix0
  dsimp only [Cert.Pre_finite_inputs.fn] at h0
  have hi := Host.reduce_andi_all _ _ _ _ ValueIdx.ix0 h0 i
  have hi' : Ideal.cmp .olt (max (x i : EReal) (-(x i : EReal))) (Ideal.ofBits .f32 0x7F800000#32) = 1#1 := hi
  rw [ofBits_inf] at hi'
  have hlt : max (x i : EReal) (-(x i : EReal)) < ⊤ := by
    by_contra hc
    unfold Ideal.cmp at hi'
    simp [hc] at hi'
  generalize (x i : EReal) = v at hlt ⊢
  induction v using EReal.rec with
  | bot => simp at hlt
  | coe r => exact ⟨r, rfl⟩
  | top => simp at hlt

end Cert.Finite

end
-- ==== Proof.lean ====
/-
  The certificate's five claims for the online log-sum-exp cross-entropy kernel against its reference.

  Both programs return minus the mean over the 4096 rows of `x[b, t_b] - logsumexp(x[b, :])`, where `t_b` is the
  row's class index (a negative index counted from the end; a row whose index is out of range contributes the
  fill word, which at the ideal instance is `⊥` on both sides, since `⊥ - y = ⊥`). The kernel obtains the
  log-sum-exp by an online reduction over 13 column tiles with a running maximum that starts at a finite floor,
  the reference by subtracting the row's maximum first; over the real numbers both are the logarithm of the sum
  of the exponentials of the row, because a shift of the exponents by any real number is undone by adding it back
  after the logarithm. That law is about real numbers: it is where the precondition (every entry finite) is used.

  The three frames: the two kernel programs' by the pipeline's frame run over the body's three kinds of grid
  point, for the word-level and the ideal instance alike; the reference's by its run, a straight line of host
  operations. The idealization rewrote nothing, so the second program is the first read at the ideal instance.
-/
import proofs.«113945_j34471407518047_2_alg».proof.Defs
import proofs.«113945_j34471407518047_2_alg».proof.Proof.Gen.Kernel
import proofs.«113945_j34471407518047_2_alg».proof.Proof.Gen.KernelIdeal
import proofs.«113945_j34471407518047_2_alg».proof.Proof.Gen.ReferenceIdeal
import proofs.«113945_j34471407518047_2_alg».proof.Proof.Gen.Pre_finite_inputs
import proofs.«113945_j34471407518047_2_alg».proof.Proof.BitsBody
import proofs.«113945_j34471407518047_2_alg».proof.Proof.IdealBody
import proofs.«113945_j34471407518047_2_alg».proof.Proof.KValue
import proofs.«113945_j34471407518047_2_alg».proof.Proof.KRun
import proofs.«113945_j34471407518047_2_alg».proof.Proof.RefRun
import proofs.«113945_j34471407518047_2_alg».proof.Proof.RefLogpA
import proofs.«113945_j34471407518047_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end, faults nowhere and leaves its arguments unchanged. -/
theorem frame_k : Cert.frame_Kernel := fun m ρ _ => Cert.Kernel.Body.frame (F := Bits) m ρ

/-- So does the same program read at the ideal instance. -/
theorem frame_ki : Cert.frame_KernelIdeal := fun m ρ _ => Cert.KernelIdeal.Body.frame (F := Ideal) m ρ

/-- And the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments, under the precondition, the two idealized programs end with the same
    result: the kernel's output array is the row-wise log-sum-exp of the real matrix, and the host tail of it is the
    reference's result. -/
theorem algebraic : Cert.algebraic_KernelIdeal_ReferenceIdeal := by
  intro m ρ m' ρ' hpre hagree
  have hex : ∀ c : Dev Cert.KernelIdeal.nD, ∃ ξ : ℕ → ℕ → ℝ, ∀ (b : Fin 4096) (col : Fin 50257),
      m ((c.tc : Thread Cert.KernelIdeal.nD Cert.KernelIdeal.τ).loc Cert.KernelIdeal.main_arg0) (ix2 b col) = ((ξ b.val col.val : ℝ) : EReal) := by
    intro c
    choose ξ0 hξ0 using fun i : Cert.KernelIdeal.S4096x50257.Idx => Cert.Finite.finite_of_pre _ _ (hpre c) i
    refine ⟨fun b' col' => if h : b' < 4096 ∧ col' < 50257 then ξ0 (ix2 ⟨b', h.1⟩ ⟨col', h.2⟩) else 0, fun b col => ?_⟩
    show _ = ((dite _ _ _ : ℝ) : EReal)
    rw [dif_pos ⟨b.isLt, col.isLt⟩]
    exact hξ0 _
  choose ξ hξ using hex
  refine ⟨fun c => Cert.ReferenceIdeal.RefRun.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2.1, (h c).2.2⟩)
      (Cert.KernelIdeal.KRun.kernel_run (F := Ideal) m ρ)
    exact Cert.Bridge.tail_eq_ref _ (ξ c) (hξ c) _ _ (fun b => Cert.KernelIdeal.KValue.lse_apply m c (ξ c) (hξ c) (ix2 b 0))
  · refine (θ_run Cert.ReferenceIdeal.defs _ _).mono (fun r h c => ⟨(h c).1.trans ?_, (h c).2.1, (h c).2.2⟩)
      (Cert.ReferenceIdeal.RefRun.run (F := Ideal) m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
